-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x128x16 : Shape := ⟨3, ![1024, 128, 16]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x128x16 : S_.BroadcastsInDim S1024x128x16 (![] : Fin 0 → Fin S1024x128x16.rank)
  reducesTo_S1024x128x16_S_d0_1_2 : S1024x128x16.ReducesTo [0, 1, 2] S_

variable [Facts]

def fn {F : FTy → Type} [FloatOps F] (main_arg0 : FVec F S256x1024 .f32) (main_arg1 : FVec F S1024x128x16 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x128x16 .f32 := Host.absf main_arg1
  let main_cst_0 : FVec F S_ .f32 := constant S_ .f32 0x7F800000#32
  let main_v5 : FVec F S1024x128x16 .f32 := broadcastInDim S1024x128x16 ![] bcast_S_S1024x128x16 main_cst_0
  let main_v6 : IVec S1024x128x16 1 := cmpf .olt main_v4 main_v5
  let main_c_1 : IVec S_ 1 := constantI S_ 1 1#1
  let main_v7 : IVec S_ 1 := (fun x v => Host.reduce IntOp.andi x v reducesTo_S1024x128x16_S_d0_1_2 h_S_) main_v6 main_c_1
  let main_v8 : IVec S_ 1 := andi main_v3 main_v7
  main_v8
-- ==== Kernel.lean ====
abbrev S256x1024 : Shape := ⟨2, ![256, 1024]⟩
abbrev S1024x128x16 : Shape := ⟨3, ![1024, 128, 16]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩
abbrev S256x128x16 : Shape := ⟨3, ![256, 128, 16]⟩
abbrev S256x16x128 : Shape := ⟨3, ![256, 16, 128]⟩
abbrev S256x128 : Shape := ⟨2, ![256, 128]⟩
abbrev S128x16x128 : Shape := ⟨3, ![128, 16, 128]⟩
abbrev S32x16x128 : Shape := ⟨3, ![32, 16, 128]⟩
abbrev S128x128 : Shape := ⟨2, ![128, 128]⟩
abbrev S8x16x128 : Shape := ⟨3, ![8, 16, 128]⟩
abbrev S8x32x128 : Shape := ⟨3, ![8, 32, 128]⟩
abbrev S8x1x128 : Shape := ⟨3, ![8, 1, 128]⟩
abbrev S8x128 : Shape := ⟨2, ![8, 128]⟩
abbrev S32x1x128 : Shape := ⟨3, ![32, 1, 128]⟩
abbrev S32x128 : Shape := ⟨2, ![32, 128]⟩
abbrev S1x32x128 : Shape := ⟨3, ![1, 32, 128]⟩
abbrev S256x1152 : Shape := ⟨2, ![256, 1152]⟩

abbrev nBuf : Space → Nat
  | .hbm => 8
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x128x16, .f32⟩
  | .hbm, ⟨2, _⟩ => ⟨S1024x2048, .f32⟩
  | .hbm, ⟨3, _⟩ => ⟨S256x2048, .f32⟩
  | .hbm, ⟨4, _⟩ => ⟨S256x128x16, .f32⟩
  | .hbm, ⟨5, _⟩ => ⟨S256x16x128, .f32⟩
  | .hbm, ⟨6, _⟩ => ⟨S256x128, .f32⟩
  | .hbm, ⟨7, _⟩ => ⟨S256x1152, .f32⟩
  | .local _ .vmem, ⟨0, _⟩ => ⟨S256x1024, .f32⟩
  | .local _ .vmem, ⟨1, _⟩ => ⟨S1024x512, .f32⟩
  | .local _ .vmem, ⟨2, _⟩ => ⟨S1024x512, .f32⟩
  | .local _ .vmem, ⟨3, _⟩ => ⟨S256x512, .f32⟩
  | .local _ .vmem, ⟨4, _⟩ => ⟨S256x512, .f32⟩
  | .local _ .vmem, ⟨5, _⟩ => ⟨S128x16x128, .f32⟩
  | .local _ .vmem, ⟨6, _⟩ => ⟨S128x16x128, .f32⟩
  | .local _ .vmem, ⟨7, _⟩ => ⟨S32x16x128, .f32⟩
  | .local _ .vmem, ⟨8, _⟩ => ⟨S32x16x128, .f32⟩
  | .local _ .vmem, ⟨9, _⟩ => ⟨S128x128, .f32⟩
  | .local _ .vmem, ⟨10, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x128x16_S1024x2048 : S1024x128x16.ShapeCasts S1024x2048
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x512_S256x512_0_0 : ∀ a, (![0, 0] : Fin 2 → Nat) a + S256x512.size a ≤ S256x512.size a
  h_S256x512 : 0 < S256x512.numel
  shapeCasts_S256x2048_S256x128x16 : S256x2048.ShapeCasts S256x128x16
  transposes_S256x128x16_S256x16x128_0_2_1 : S256x128x16.Transposes [0, 2, 1] S256x16x128
  inb_S128x128_S128x128_0_0 : ∀ a, (![0, 0] : Fin 2 → Nat) a + S128x128.size a ≤ S128x128.size a
  h_S128x128 : 0 < S128x128.numel
  inb_S128x16x128_S8x16x128_0_0_0 : ∀ a, (![0, 0, 0] : Fin 3 → Nat) a + S8x16x128.size a ≤ S128x16x128.size a
  h_S8x16x128 : 0 < S8x16x128.numel
  shapeCasts_S8x16x128_S8x16x128 : S8x16x128.ShapeCasts S8x16x128
  slices_S8x16x128_o0_0_0_S8x1x128 : S8x16x128.Slices ![0, 0, 0] S8x1x128
  shapeCasts_S8x1x128_S8x128 : S8x1x128.ShapeCasts S8x128
  inb_S32x16x128_S32x1x128_0_0_0 : ∀ a, (![0, 0, 0] : Fin 3 → Nat) a + S32x1x128.size a ≤ S32x16x128.size a
  h_S32x1x128 : 0 < S32x1x128.numel
  shapeCasts_S32x1x128_S32x128 : S32x1x128.ShapeCasts S32x128
  shapeCasts_S8x128_S8x1x128 : S8x128.ShapeCasts S8x1x128
  shapeCasts_S32x128_S1x32x128 : S32x128.ShapeCasts S1x32x128
  broadcasts_S8x1x128_S8x32x128 : S8x1x128.Broadcasts S8x32x128
  broadcasts_S1x32x128_S8x32x128 : S1x32x128.Broadcasts S8x32x128
  slices_S8x16x128_o0_1_0_S8x1x128 : S8x16x128.Slices ![0, 1, 0] S8x1x128
  inb_S32x16x128_S32x1x128_0_1_0 : ∀ a, (![0, 1, 0] : Fin 3 → Nat) a + S32x1x128.size a ≤ S32x16x128.size a
  slices_S8x16x128_o0_2_0_S8x1x128 : S8x16x128.Slices ![0, 2, 0] S8x1x128
  inb_S32x16x128_S32x1x128_0_2_0 : ∀ a, (![0, 2, 0] : Fin 3 → Nat) a + S32x1x128.size a ≤ S32x16x128.size a
  slices_S8x16x128_o0_3_0_S8x1x128 : S8x16x128.Slices ![0, 3, 0] S8x1x128
  inb_S32x16x128_S32x1x128_0_3_0 : ∀ a, (![0, 3, 0] : Fin 3 → Nat) a + S32x1x128.size a ≤ S32x16x128.size a
  slices_S8x16x128_o0_4_0_S8x1x128 : S8x16x128.Slices ![0, 4, 0] S8x1x128
  inb_S32x16x128_S32x1x128_0_4_0 : ∀ a, (![0, 4, 0] : Fin 3 → Nat) a + S32x1x128.size a ≤ S32x16x128.size a
  slices_S8x16x128_o0_5_0_S8x1x128 : S8x16x128.Slices ![0, 5, 0] S8x1x128
  inb_S32x16x128_S32x1x128_0_5_0 : ∀ a, (![0, 5, 0] : Fin 3 → Nat) a + S32x1x128.size a ≤ S32x16x128.size a
  slices_S8x16x128_o0_6_0_S8x1x128 : S8x16x128.Slices ![0, 6, 0] S8x1x128
  inb_S32x16x128_S32x1x128_0_6_0 : ∀ a, (![0, 6, 0] : Fin 3 → Nat) a + S32x1x128.size a ≤ S32x16x128.size a
  slices_S8x16x128_o0_7_0_S8x1x128 : S8x16x128.Slices ![0, 7, 0] S8x1x128
  inb_S32x16x128_S32x1x128_0_7_0 : ∀ a, (![0, 7, 0] : Fin 3 → Nat) a + S32x1x128.size a ≤ S32x16x128.size a
  slices_S8x16x128_o0_8_0_S8x1x128 : S8x16x128.Slices ![0, 8, 0] S8x1x128
  inb_S32x16x128_S32x1x128_0_8_0 : ∀ a, (![0, 8, 0] : Fin 3 → Nat) a + S32x1x128.size a ≤ S32x16x128.size a
  slices_S8x16x128_o0_9_0_S8x1x128 : S8x16x128.Slices ![0, 9, 0] S8x1x128
  inb_S32x16x128_S32x1x128_0_9_0 : ∀ a, (![0, 9, 0] : Fin 3 → Nat) a + S32x1x128.size a ≤ S32x16x128.size a
  slices_S8x16x128_o0_10_0_S8x1x128 : S8x16x128.Slices ![0, 10, 0] S8x1x128
  inb_S32x16x128_S32x1x128_0_10_0 : ∀ a, (![0, 10, 0] : Fin 3 → Nat) a + S32x1x128.size a ≤ S32x16x128.size a
  slices_S8x16x128_o0_11_0_S8x1x128 : S8x16x128.Slices ![0, 11, 0] S8x1x128
  inb_S32x16x128_S32x1x128_0_11_0 : ∀ a, (![0, 11, 0] : Fin 3 → Nat) a + S32x1x128.size a ≤ S32x16x128.size a
  slices_S8x16x128_o0_12_0_S8x1x128 : S8x16x128.Slices ![0, 12, 0] S8x1x128
  inb_S32x16x128_S32x1x128_0_12_0 : ∀ a, (![0, 12, 0] : Fin 3 → Nat) a + S32x1x128.size a ≤ S32x16x128.size a
  slices_S8x16x128_o0_13_0_S8x1x128 : S8x16x128.Slices ![0, 13, 0] S8x1x128
  inb_S32x16x128_S32x1x128_0_13_0 : ∀ a, (![0, 13, 0] : Fin 3 → Nat) a + S32x1x128.size a ≤ S32x16x128.size a
  slices_S8x16x128_o0_14_0_S8x1x128 : S8x16x128.Slices ![0, 14, 0] S8x1x128
  inb_S32x16x128_S32x1x128_0_14_0 : ∀ a, (![0, 14, 0] : Fin 3 → Nat) a + S32x1x128.size a ≤ S32x16x128.size a
  slices_S8x16x128_o0_15_0_S8x1x128 : S8x16x128.Slices ![0, 15, 0] S8x1x128
  inb_S32x16x128_S32x1x128_0_15_0 : ∀ a, (![0, 15, 0] : Fin 3 → Nat) a + S32x1x128.size a ≤ S32x16x128.size a
  reduces_S8x32x128_S8x128 : S8x32x128.Reduces [1] S8x128
  inb_S128x128_S8x128_0_0 : ∀ a, (![0, 0] : Fin 2 → Nat) a + S8x128.size a ≤ S128x128.size a
  h_S8x128 : 0 < S8x128.numel
  shapeCasts_S8x128_S8x128 : S8x128.ShapeCasts S8x128
  inb_S128x16x128_S8x16x128_8_0_0 : ∀ a, (![8, 0, 0] : Fin 3 → Nat) a + S8x16x128.size a ≤ S128x16x128.size a
  inb_S128x128_S8x128_8_0 : ∀ a, (![8, 0] : Fin 2 → Nat) a + S8x128.size a ≤ S128x128.size a
  inb_S128x16x128_S8x16x128_16_0_0 : ∀ a, (![16, 0, 0] : Fin 3 → Nat) a + S8x16x128.size a ≤ S128x16x128.size a
  inb_S128x128_S8x128_16_0 : ∀ a, (![16, 0] : Fin 2 → Nat) a + S8x128.size a ≤ S128x128.size a
  inb_S128x16x128_S8x16x128_24_0_0 : ∀ a, (![24, 0, 0] : Fin 3 → Nat) a + S8x16x128.size a ≤ S128x16x128.size a
  inb_S128x128_S8x128_24_0 : ∀ a, (![24, 0] : Fin 2 → Nat) a + S8x128.size a ≤ S128x128.size a
  inb_S128x16x128_S8x16x128_32_0_0 : ∀ a, (![32, 0, 0] : Fin 3 → Nat) a + S8x16x128.size a ≤ S128x16x128.size a
  inb_S128x128_S8x128_32_0 : ∀ a, (![32, 0] : Fin 2 → Nat) a + S8x128.size a ≤ S128x128.size a
  inb_S128x16x128_S8x16x128_40_0_0 : ∀ a, (![40, 0, 0] : Fin 3 → Nat) a + S8x16x128.size a ≤ S128x16x128.size a
  inb_S128x128_S8x128_40_0 : ∀ a, (![40, 0] : Fin 2 → Nat) a + S8x128.size a ≤ S128x128.size a
  inb_S128x16x128_S8x16x128_48_0_0 : ∀ a, (![48, 0, 0] : Fin 3 → Nat) a + S8x16x128.size a ≤ S128x16x128.size a
  inb_S128x128_S8x128_48_0 : ∀ a, (![48, 0] : Fin 2 → Nat) a + S8x128.size a ≤ S128x128.size a
  inb_S128x16x128_S8x16x128_56_0_0 : ∀ a, (![56, 0, 0] : Fin 3 → Nat) a + S8x16x128.size a ≤ S128x16x128.size a
  inb_S128x128_S8x128_56_0 : ∀ a, (![56, 0] : Fin 2 → Nat) a + S8x128.size a ≤ S128x128.size a
  inb_S128x16x128_S8x16x128_64_0_0 : ∀ a, (![64, 0, 0] : Fin 3 → Nat) a + S8x16x128.size a ≤ S128x16x128.size a
  inb_S128x128_S8x128_64_0 : ∀ a, (![64, 0] : Fin 2 → Nat) a + S8x128.size a ≤ S128x128.size a
  inb_S128x16x128_S8x16x128_72_0_0 : ∀ a, (![72, 0, 0] : Fin 3 → Nat) a + S8x16x128.size a ≤ S128x16x128.size a
  inb_S128x128_S8x128_72_0 : ∀ a, (![72, 0] : Fin 2 → Nat) a + S8x128.size a ≤ S128x128.size a
  inb_S128x16x128_S8x16x128_80_0_0 : ∀ a, (![80, 0, 0] : Fin 3 → Nat) a + S8x16x128.size a ≤ S128x16x128.size a
  inb_S128x128_S8x128_80_0 : ∀ a, (![80, 0] : Fin 2 → Nat) a + S8x128.size a ≤ S128x128.size a
  inb_S128x16x128_S8x16x128_88_0_0 : ∀ a, (![88, 0, 0] : Fin 3 → Nat) a + S8x16x128.size a ≤ S128x16x128.size a
  inb_S128x128_S8x128_88_0 : ∀ a, (![88, 0] : Fin 2 → Nat) a + S8x128.size a ≤ S128x128.size a
  inb_S128x16x128_S8x16x128_96_0_0 : ∀ a, (![96, 0, 0] : Fin 3 → Nat) a + S8x16x128.size a ≤ S128x16x128.size a
  inb_S128x128_S8x128_96_0 : ∀ a, (![96, 0] : Fin 2 → Nat) a + S8x128.size a ≤ S128x128.size a
  inb_S128x16x128_S8x16x128_104_0_0 : ∀ a, (![104, 0, 0] : Fin 3 → Nat) a + S8x16x128.size a ≤ S128x16x128.size a
  inb_S128x128_S8x128_104_0 : ∀ a, (![104, 0] : Fin 2 → Nat) a + S8x128.size a ≤ S128x128.size a
  inb_S128x16x128_S8x16x128_112_0_0 : ∀ a, (![112, 0, 0] : Fin 3 → Nat) a + S8x16x128.size a ≤ S128x16x128.size a
  inb_S128x128_S8x128_112_0 : ∀ a, (![112, 0] : Fin 2 → Nat) a + S8x128.size a ≤ S128x128.size a
  inb_S128x16x128_S8x16x128_120_0_0 : ∀ a, (![120, 0, 0] : Fin 3 → Nat) a + S8x16x128.size a ≤ S128x16x128.size a
  inb_S128x128_S8x128_120_0 : ∀ a, (![120, 0] : Fin 2 → Nat) a + S8x128.size a ≤ S128x128.size a
  shapeCasts_S128x128_S128x128 : S128x128.ShapeCasts S128x128
  concatenates_S256x1024_S256x128_S256x1152_d1 : Shape.Concatenates [S256x1024, S256x128] S256x1152 1
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x2048.size a
  hwx0_1 : ∀ i : grid0.Coords, EltTy.bits .f32 = 32 ∨ (Rect.block (s := S1024x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x2048.size a
  hwx0_2 : ∀ i : grid0.Coords, EltTy.bits .f32 = 32 ∨ (Rect.block (s := S256x2048) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x128.size a ≤ S256x16x128.size a
  hwx1_0 : ∀ i : grid1.Coords, EltTy.bits .f32 = 32 ∨ (Rect.block (s := S256x16x128) S128x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16x128.size a ≤ S256x16x128.size a
  hwx1_1 : ∀ i : grid1.Coords, EltTy.bits .f32 = 32 ∨ (Rect.block (s := S256x16x128) S32x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S256x128.size a
  hwx1_2 : ∀ i : grid1.Coords, EltTy.bits .f32 = 32 ∨ (Rect.block (s := S256x128) S128x128.size (cc1_transform_2 i) (hinb1_2 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S32x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x1024 : Shape := ⟨2, ![256, 1024]⟩
abbrev S1024x128x16 : Shape := ⟨3, ![1024, 128, 16]⟩
abbrev S1024x2048 : Shape := ⟨2, ![1024, 2048]⟩
abbrev S256x2048 : Shape := ⟨2, ![256, 2048]⟩
abbrev S256x128x16 : Shape := ⟨3, ![256, 128, 16]⟩
abbrev S1x256x128x16 : Shape := ⟨4, ![1, 256, 128, 16]⟩
abbrev S256x1x128x16 : Shape := ⟨4, ![256, 1, 128, 16]⟩
abbrev S256x256x128x16 : Shape := ⟨4, ![256, 256, 128, 16]⟩
abbrev S_ : Shape := ⟨0, ![]⟩
abbrev S256x256x128 : Shape := ⟨3, ![256, 256, 128]⟩
abbrev S256x128 : Shape := ⟨2, ![256, 128]⟩
abbrev S256x1152 : Shape := ⟨2, ![256, 1152]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x128x16, .f32⟩
  | .hbm, ⟨2, _⟩ => ⟨S1024x2048, .f32⟩
  | .hbm, ⟨3, _⟩ => ⟨S256x2048, .f32⟩
  | .hbm, ⟨4, _⟩ => ⟨S256x128x16, .f32⟩
  | .hbm, ⟨5, _⟩ => ⟨S1x256x128x16, .f32⟩
  | .hbm, ⟨6, _⟩ => ⟨S256x1x128x16, .f32⟩
  | .hbm, ⟨7, _⟩ => ⟨S256x256x128x16, .f32⟩
  | .hbm, ⟨8, _⟩ => ⟨S256x256x128x16, .f32⟩
  | .hbm, ⟨9, _⟩ => ⟨S256x256x128x16, .f32⟩
  | .hbm, ⟨10, _⟩ => ⟨S256x256x128x16, .f32⟩
  | .hbm, ⟨11, _⟩ => ⟨S_, .f32⟩
  | .hbm, ⟨12, _⟩ => ⟨S256x256x128, .f32⟩
  | .hbm, ⟨13, _⟩ => ⟨S256x256x128, .f32⟩
  | .hbm, ⟨14, _⟩ => ⟨S256x256x128, .f32⟩
  | .hbm, ⟨15, _⟩ => ⟨S_, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x1152, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x128x16_S1024x2048 : S1024x128x16.ShapeCasts S1024x2048
  shapeCasts_S256x2048_S256x128x16 : S256x2048.ShapeCasts S256x128x16
  bcast_S256x128x16_S1x256x128x16_1_2_3 : S256x128x16.BroadcastsInDim S1x256x128x16 (![1, 2, 3] : Fin 3 → Fin S1x256x128x16.rank)
  bcast_S256x128x16_S256x1x128x16_0_2_3 : S256x128x16.BroadcastsInDim S256x1x128x16 (![0, 2, 3] : Fin 3 → Fin S256x1x128x16.rank)
  bcast_S1x256x128x16_S256x256x128x16_0_1_2_3 : S1x256x128x16.BroadcastsInDim S256x256x128x16 (![0, 1, 2, 3] : Fin 4 → Fin S256x256x128x16.rank)
  bcast_S256x1x128x16_S256x256x128x16_0_1_2_3 : S256x1x128x16.BroadcastsInDim S256x256x128x16 (![0, 1, 2, 3] : Fin 4 → Fin S256x256x128x16.rank)
  reducesTo_S256x256x128x16_S256x256x128_d3 : S256x256x128x16.ReducesTo [3] S256x256x128
  h_S_ : 0 < S_.numel
  reducesTo_S256x256x128_S256x128_d0 : S256x256x128.ReducesTo [0] S256x128
  bcast_S_S256x128 : S_.BroadcastsInDim S256x128 (![] : Fin 0 → Fin S256x128.rank)
  concatenates_S256x1024_S256x128_S256x1152_d1 : Shape.Concatenates [S256x1024, S256x128] S256x1152 1
  dot_S256x1024_S1024x2048_S256x2048_1_0_0_1_n_n_wf : DotDims.WF S256x1024 S1024x2048 S256x2048 [1] [0] [0] [1] [] []

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

class Facts : Prop extends Facts₀ where

variable [Facts]
-- ==== Proof.KRegion0.lean ====
/- REGION 0 of the kernel program: the projection matmul (custom_call 0, pipeline 0, a grid of 4 points).
   Window 0 is the left operand's whole [256,1024] block (fetched once), window 1 the right operand's
   column block [1024,512], window 2 the output's column block [256,512], written back at every point.
   Stated at a parameter `V`, the TensorCore's buffer contents when the region is entered, and at any
   float instance. -/
import proofs.«175280_j70806830842566_2_alg».proof.Proof.Gen.Kernel.Launch
import proofs.«175280_j70806830842566_2_alg».proof.Proof.Gen.Kernel.Skeleton
import proofs.«175280_j70806830842566_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (its block index
    never moves), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its column block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x512 := Rect.unit (s := S1024x512) ![0, 0] S1024x512.size inb_S1024x512_S1024x512_0_0
abbrev r0_2 : Rect S256x512 := Rect.unit (s := S256x512) ![0, 0] S256x512.size inb_S256x512_S256x512_0_0

/-! ## What the body leaves in the output window's buffer -/

/-- Window 2's staging buffer after the body, from the input windows' blocks: its one store, of the product of
    the two loaded blocks. -/
def out0_2 (x0 : Vec F S256x1024 .f32) (x1 : Vec F S1024x512 .f32) : Vec F S256x512 .f32 :=
  View.canon [⟨r0_2, k0_pay1 (View.ld x0 r0_0) (View.ld x1 r0_1)⟩]

/-- The store is of the whole buffer, so it covers it. -/
theorem cover0_2 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg1 : Memref sig .tc .vmem S256x1024 .f32) (harg1 : arg1.IsWhole)
    (arg2 : Memref sig .tc .vmem S1024x512 .f32) (harg2 : arg2.IsWhole) (arg3 : Memref sig .tc .vmem S256x512 .f32) (harg3 : arg3.IsWhole)
    (x0 : Vec F S256x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KR1Runs.lean ====
import proofs.«175280_j70806830842566_2_alg».proof.Proof.Gen.Kernel.Launch
import proofs.«175280_j70806830842566_2_alg».proof.Proof.Gen.Kernel.Skeleton
import proofs.«175280_j70806830842566_2_alg».proof.Proof.Gen.Kernel.Points
import Idealize.ShloMosaic.Lib.Pipeline.FrameBody
import Idealize.ShloMosaic.Lib.Ring
import Idealize.ShloMosaic.Lib.Tactic

/-! # The pairwise region: what its three control cases share

The pairwise kernel runs on a grid of 2 × 8 points `(i, j)`: row tile `i` (128 rows) against key tile `j` (32 rows). Its body
branches twice on `j`: at `j = 0` it first clears the output block, and at `j = 7` it finally subtracts `1.0` from it. So
a point is in one of three cases: first (`j = 0`), middle (`1 ≤ j ≤ 6`), last (`j = 7`). Here: the two conditions as the
body computes them from the coordinates, their closed forms over the 16 points, and the staging memrefs at a point. -/
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test, `j = 0`, as it computes it from the coordinates. -/
abbrev cond0 (i : grid1.Coords) : Prop := (Scalar.cmpi .ne (Scalar.extui (Scalar.cmpi .eq (BitVec.ofNat 32 (i 1).val) 0#32)) 0#32) = 1#1
/-- The body's second test, `j = 7`. -/
abbrev cond1 (i : grid1.Coords) : Prop := (Scalar.cmpi .ne (Scalar.extui (Scalar.cmpi .eq (BitVec.ofNat 32 (i 1).val) 7#32)) 0#32) = 1#1

/-- Point `t` is `(t / 8, t % 8)`: the first test holds exactly at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)
/-- The second test holds exactly at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-- One staging buffer of the output window, through which its contents are stated. -/
abbrev VO : View sig .tc .vmem S128x128 .f32 := (Memref.whole cc1_stg2_0 : Memref sig .tc .vmem S128x128 .f32).view
/-- Each window's current staging memref at point `t`, and its wholeness. -/
abbrev ms0 (t : Fin cfg1.N) : Memref sig .tc .vmem S128x16x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S32x16x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .f32 := win1_2.stage (cfg1.slots t 2)
abbrev hs2 (t : Fin cfg1.N) : (ms2 t).IsWhole := hstage1_2 ((cfg1.slots t 2).cast nbuf1_2)

end Cert.Kernel.R1

end
-- ==== Proof.KR1RunA.lean ====
import proofs.«175280_j70806830842566_2_alg».proof.Proof.KR1Runs

/-! # The pairwise kernel's body in its first (`j = 0`) case: the run

On whole staging memrefs — the row tile's block `x0`, the key tile's block `x1` — the body runs to its end,
leaves both input blocks as they were and the output block with a list of pieces written: one per chunk of 8 rows, over the clearing store. The
pieces are found by the run itself. -/
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block in this case (last first), with the proof that the body runs to
    the continuation holding the inputs as they were and the output with those pieces written. -/
noncomputable def kernelRun_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i)
    (x0 : Vec F S128x16x128 .f32) (x1 : Vec F S32x16x128 .f32) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__pairwise_kernel i arg2 harg2 arg3 harg3 arg4 harg4) K } := by
  refine ⟨?_, fun E K => ?run⟩
  case run =>
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.KR1RunB.lean ====
import proofs.«175280_j70806830842566_2_alg».proof.Proof.KR1Runs

/-! # The pairwise kernel's body in its middle (`1 ≤ j ≤ 6`) case: the run

On whole staging memrefs — the row tile's block `x0`, the key tile's block `x1`, the output block's running contents `xo` — the body runs to its end,
leaves both input blocks as they were and the output block with a list of pieces written: one per chunk of 8 rows. The
pieces are found by the run itself. -/
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block in this case (last first), with the proof that the body runs to
    the continuation holding the inputs as they were and the output with those pieces written. -/
noncomputable def kernelRun_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i)
    (x0 : Vec F S128x16x128 .f32) (x1 : Vec F S32x16x128 .f32) (xo : Vec F S128x128 .f32) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__pairwise_kernel i arg2 harg2 arg3 harg3 arg4 harg4) K } := by
  refine ⟨?_, fun E K => ?run⟩
  case run =>
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.KR1RunC.lean ====
import proofs.«175280_j70806830842566_2_alg».proof.Proof.KR1Runs

/-! # The pairwise kernel's body in its last (`j = 7`) case: the run

On whole staging memrefs — the row tile's block `x0`, the key tile's block `x1`, the output block's running contents `xo` — the body runs to its end,
leaves both input blocks as they were and the output block with a list of pieces written: one per chunk of 8 rows, then the whole block once more (minus `1.0`). The
pieces are found by the run itself. -/
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block in this case (last first), with the proof that the body runs to
    the continuation holding the inputs as they were and the output with those pieces written. -/
noncomputable def kernelRun_C (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i)
    (x0 : Vec F S128x16x128 .f32) (x1 : Vec F S32x16x128 .f32) (xo : Vec F S128x128 .f32) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__pairwise_kernel i arg2 harg2 arg3 harg3 arg4 harg4) K } := by
  refine ⟨?_, fun E K => ?run⟩
  case run =>
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.KR1Data.lean ====
import proofs.«175280_j70806830842566_2_alg».proof.Proof.KR1RunA
import proofs.«175280_j70806830842566_2_alg».proof.Proof.KR1RunB
import proofs.«175280_j70806830842566_2_alg».proof.Proof.KR1RunC
import Idealize.ShloMosaic.Lib.Pipeline.RegionsLoop
import Idealize.ShloMosaic.Lib.Pipeline.FrameSuffix

/-! # The pairwise region: what its output block holds point by point, and the body obligation

At point `t = 8 i + j` the body reads the row tile's block (window 0, rows `128 i …`), the key tile's block (window 1, rows
`32 j …`) and — except at `j = 0`, where it clears it first — what the point before left in the output block (window 2),
to which it adds the key tile's contribution; at `j = 7` it subtracts `1.0` and the block is written back. So the output
block after point `t` is defined by recursion on the point (`outsAt`), each step one of the three cases' runs read back.
Both input windows read ONE array (the transposed projection), so each holds half a share of it. -/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (between two
    fetches its block index does not move), for any proof data over the region-entry arrays that leaves it in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end

/-! ## What each case leaves in the output block -/

/-- The first case's pieces cover the block. -/
theorem cover_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec F S128x16x128 .f32) (x1 : Vec F S32x16x128 .f32) (y : S128x128.Idx) :
    ∃ pc ∈ (kernelRun_A c i arg2 harg2 arg3 harg3 arg4 harg4 hc0 hc1 x0 x1).1, y ∈ pc.1.set :=
  View.cover_of_tiledL (kernelRun_A c i arg2 harg2 arg3 harg3 arg4 harg4 hc0 hc1 x0 x1).1 S128x128.size (by sl_kernel_rfl) y
/-- What the first case leaves in the output block: its pieces read back. -/
def out_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec F S128x16x128 .f32) (x1 : Vec F S32x16x128 .f32) : Vec F S128x128 .f32 :=
  VO.read (Elt F) (VO.writes (Elt F) VO.junk (kernelRun_A c i arg2 harg2 arg3 harg3 arg4 harg4 hc0 hc1 x0 x1).1)

theorem cover_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i) (x0 : Vec F S128x16x128 .f32) (x1 : Vec F S32x16x128 .f32) (xo : Vec F S128x128 .f32) (y : S128x128.Idx) :
    ∃ pc ∈ (kernelRun_B c i arg2 harg2 arg3 harg3 arg4 harg4 hc0 hc1 x0 x1 xo).1, y ∈ pc.1.set :=
  View.cover_of_tiledL (kernelRun_B c i arg2 harg2 arg3 harg3 arg4 harg4 hc0 hc1 x0 x1 xo).1 S8x128.size (by sl_kernel_rfl) y
def out_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i) (x0 : Vec F S128x16x128 .f32) (x1 : Vec F S32x16x128 .f32) (xo : Vec F S128x128 .f32) : Vec F S128x128 .f32 :=
  VO.read (Elt F) (VO.writes (Elt F) VO.junk (kernelRun_B c i arg2 harg2 arg3 harg3 arg4 harg4 hc0 hc1 x0 x1 xo).1)

theorem cover_C (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i) (x0 : Vec F S128x16x128 .f32) (x1 : Vec F S32x16x128 .f32) (xo : Vec F S128x128 .f32) (y : S128x128.Idx) :
    ∃ pc ∈ (kernelRun_C c i arg2 harg2 arg3 harg3 arg4 harg4 hc0 hc1 x0 x1 xo).1, y ∈ pc.1.set :=
  View.cover_of_tiledL (kernelRun_C c i arg2 harg2 arg3 harg3 arg4 harg4 hc0 hc1 x0 x1 xo).1 S128x128.size (by sl_kernel_rfl) y
def out_C (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i) (x0 : Vec F S128x16x128 .f32) (x1 : Vec F S32x16x128 .f32) (xo : Vec F S128x128 .f32) : Vec F S128x128 .f32 :=
  VO.read (Elt F) (VO.writes (Elt F) VO.junk (kernelRun_C c i arg2 harg2 arg3 harg3 arg4 harg4 hc0 hc1 x0 x1 xo).1)

section
variable (V : (c : Dev nD) → (b : Ref sig .tc) → Buf (Elt F) ((c : Thread nD τ).loc b))

/-! ## The accumulation, point by point -/

/-- The output block after the body at position `n`: the case the closed forms select, run at the point's memrefs and
    input blocks, over what the point before left (except in the first case, which clears the block). -/
def outsAt (c : Dev nD) : (n : ℕ) → n < cfg1.N → Vec F S128x128 .f32
  | 0, hn => out_A c (grid1.coords ⟨0, hn⟩) (ms0 ⟨0, hn⟩) (hs0 ⟨0, hn⟩) (ms1 ⟨0, hn⟩) (hs1 ⟨0, hn⟩) (ms2 ⟨0, hn⟩) (hs2 ⟨0, hn⟩)
      ((hcond0 ⟨0, hn⟩).mpr (Nat.zero_mod _)) (fun h => by have := (hcond1 ⟨0, hn⟩).mp h; dsimp only at this; omega) (iblk V c 0 ⟨0, hn⟩) (iblk V c 1 ⟨0, hn⟩)
  | n + 1, hn =>
    if h0 : (n + 1) % 8 = 0 then
      out_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond0 ⟨n + 1, hn⟩).mpr h0) (fun h => by have := (hcond1 ⟨n + 1, hn⟩).mp h; dsimp only at this; omega) (iblk V c 0 ⟨n + 1, hn⟩) (iblk V c 1 ⟨n + 1, hn⟩)
    else if h1 : (n + 1) % 8 = 7 then
      out_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) ((hcond1 ⟨n + 1, hn⟩).mpr h1) (iblk V c 0 ⟨n + 1, hn⟩) (iblk V c 1 ⟨n + 1, hn⟩) (outsAt c n (Nat.lt_of_succ_lt hn))
    else
      out_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) (fun h => h1 ((hcond1 ⟨n + 1, hn⟩).mp h)) (iblk V c 0 ⟨n + 1, hn⟩) (iblk V c 1 ⟨n + 1, hn⟩) (outsAt c n (Nat.lt_of_succ_lt hn))

/-- `outsAt` at a point of the first case. -/
theorem outsAt_A (c : Dev nD) (t : Fin cfg1.N) (h0 : t.val % 8 = 0) :
    outsAt V c t.val t.isLt = out_A c (grid1.coords t) (ms0 t) (hs0 t) (ms1 t) (hs1 t) (ms2 t) (hs2 t) ((hcond0 t).mpr h0)
      (fun h => by have := (hcond1 t).mp h; omega) (iblk V c 0 t) (iblk V c 1 t) := by
  obtain ⟨n, hn⟩ := t
  cases n with
  | zero => exact rfl
  | succ n => exact (dif_pos h0).trans rfl

/-- `outsAt` at a point of the last case: over what the point before left. -/
theorem outsAt_C (c : Dev nD) (t : Fin cfg1.N) (h0 : ¬t.val % 8 = 0) (h1 : t.val % 8 = 7) :
    outsAt V c t.val t.isLt = out_C c (grid1.coords t) (ms0 t) (hs0 t) (ms1 t) (hs1 t) (ms2 t) (hs2 t) (fun h => h0 ((hcond0 t).mp h))
      ((hcond1 t).mpr h1) (iblk V c 0 t) (iblk V c 1 t) (outsAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-- `outsAt` at a point of the middle case: over what the point before left. -/
theorem outsAt_B (c : Dev nD) (t : Fin cfg1.N) (h0 : ¬t.val % 8 = 0) (h1 : ¬t.val % 8 = 7) :
    outsAt V c t.val t.isLt = out_B c (grid1.coords t) (ms0 t) (hs0 t) (ms1 t) (hs1 t) (ms2 t) (hs2 t) (fun h => h0 ((hcond0 t).mp h))
      (fun h => h1 ((hcond1 t).mp h)) (iblk V c 0 t) (iblk V c 1 t) (outsAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

/-! ## The proof data -/

/-- The pairwise pipeline's proof data on core `c`: the arrays as the region finds them; after the body each input's
    buffer at its block and the output's at `outsAt`; the invariant the scoped rest and the generator register,
    untouched; nothing owed. The two input windows read one array: window 0 holds the left half of its share, window
    1 the right half. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outsAt V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = outsAt V c t.val t.isLt := by dsimp only [dat1]

theorem before1_0 (c : Dev nD) (t : Fin cfg1.N) (d) : (dat1 V c).before 0 t d = iblk V c 0 t :=
  before0_of V (dat1 V c) (A_eq1 V c 0) (after1_0 V c) t d
theorem before1_1 (c : Dev nD) (t : Fin cfg1.N) (d) : (dat1 V c).before 1 t d = iblk V c 1 t :=
  before1_of V (dat1 V c) (A_eq1 V c 1) (after1_1 V c) t d
/-- At a point that is not the first of its row tile the output block's buffer holds what the point before left: the
    block is written back only after the last key tile. -/
theorem before1_2 (c : Dev nD) (t : Fin cfg1.N) (h0 : ¬t.val % 8 = 0) (d) :
    (dat1 V c).before 2 t d = outsAt V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d)))

def bodyPost (c : Dev nD) (t : Fin cfg1.N) : sProp 𝕄 :=
  iprop((dat1 V c).Φ t.succ ∗ (dat1 V c).owesAt () t.succ
    ∗ owns (c : Thread nD τ) (ms0 t) fullShare ((dat1 V c).after 0 t)
    ∗ owns (c : Thread nD τ) (ms1 t) fullShare ((dat1 V c).after 1 t)
    ∗ owns (c : Thread nD τ) (ms2 t) fullShare ((dat1 V c).after 2 t))

set_option maxHeartbeats 1600000 in
/-- The body at any point: the inputs' memrefs hold their blocks; the closed forms say which case the point is in; in the
    middle and last cases the output's buffer holds what the point before left; so that case's run applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 16 := lt_of_lt_of_eq t.isLt (show cfg1.N = 16 from N_1)
  by_cases h0 : t.val % 8 = 0
  · rw [outsAt_A V c t h0]
    unfold out_A
    iintro ⟨HΦ, Ho, ⟨%d0, H0⟩, ⟨%d1, H1⟩, ⟨%d2, H2⟩⟩
    iapply ((kernelRun_A c (grid1.coords t) _ _ _ _ _ _ ((hcond0 t).mpr h0) (fun h => by have := (hcond1 t).mp h; omega) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _ _)
  · by_cases h1 : t.val % 8 = 7
    · rw [outsAt_C V c t h0 h1]
      simp only [before1_2 V c t h0]
      unfold out_C
      iintro ⟨HΦ, Ho, ⟨%d0, H0⟩, ⟨%d1, H1⟩, ⟨%d2, H2⟩⟩
      iapply ((kernelRun_C c (grid1.coords t) _ _ _ _ _ _ (fun h => h0 ((hcond0 t).mp h)) ((hcond1 t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _)
    · rw [outsAt_B V c t h0 h1]
      simp only [before1_2 V c t h0]
      unfold out_B
      iintro ⟨HΦ, Ho, ⟨%d0, H0⟩, ⟨%d1, H1⟩, ⟨%d2, H2⟩⟩
      iapply ((kernelRun_B c (grid1.coords t) _ _ _ _ _ _ (fun h => h0 ((hcond0 t).mp h)) (fun h => h1 ((hcond1 t).mp h)) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_B c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body V c t

end

end Cert.Kernel.R1

end
-- ==== Proof.KAsm.lean ====
import proofs.«175280_j70806830842566_2_alg».proof.Proof.Gen.Kernel.Regions
import proofs.«175280_j70806830842566_2_alg».proof.Proof.KRegion0
import proofs.«175280_j70806830842566_2_alg».proof.Proof.KR1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole program: its two kernel regions as segments of the host program, and the run

The host program is: reshape the tensor; REGION 0 (the projection, into `main_v1`); reshape and transpose the
projection (into `main_v3`); REGION 1 (the pairwise features, into `main_v4`); concatenate the batch and the
features. Between two items the core holds every unscoped buffer whole, at contents computed from the launch memory
(`Gen.V0 … Gen.V5`), beside its generator register and an empty debt. Region 1 reads ONE array, the transposed
projection, through both of its input windows: at its entry the array's full share is dealt in halves to the two
windows, and at its exit — an input array is never written, so both halves still hold the entry contents — the halves
are joined again. -/

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents, read at the TensorCore's references. -/
abbrev VA (c : Dev nD) (b : Ref sig .tc) : Buf (Elt F) ((c : Thread nD τ).loc b) := V1 m c b
/-- What region 0 leaves in the projection's array: its write-backs folded. -/
def o2 (c : Dev nD) : Buf (Elt F) ((c : Thread nD τ).loc main_v1) := (R0.dat0 (VA m) c).arrAt 2 cfg0.N
/-- The regions' results with only region 0's known. -/
def outsA : Outs (F := F) := fun _ r c => if h : r = main_v1 then h ▸ o2 m c else m ((c : Thread nD τ).loc r)
/-- Region 1's entry contents, read at the TensorCore's references. -/
abbrev VB (c : Dev nD) (b : Ref sig .tc) : Buf (Elt F) ((c : Thread nD τ).loc b) := V3 m (outsA m) c b
/-- What region 1 leaves in the features' array. -/
def o4 (c : Dev nD) : Buf (Elt F) ((c : Thread nD τ).loc main_v4) := (R1.dat1 (VB m) c).arrAt 2 cfg1.N
/-- What the two regions leave in the buffers they may change. -/
def outs : Outs (F := F) := fun _ r c =>
  if h : r = main_v1 then h ▸ o2 m c else if h4 : r = main_v4 then h4 ▸ o4 m c else m ((c : Thread nD τ).loc r)

theorem outsA_v1 (c : Dev nD) : outsA m 2 main_v1 c = o2 m c := by unfold outsA; rw [dif_pos rfl]
theorem outs_v1 (c : Dev nD) : outs m 2 main_v1 c = o2 m c := by unfold outs; rw [dif_pos rfl]
theorem outs_v4 (c : Dev nD) : outs m 4 main_v4 c = o4 m c := by unfold outs; rw [dif_neg (by decide), dif_pos rfl]
/-- Region 1 is entered from the same contents whichever table of results is read: only region 0's matters. -/
theorem V3_outs (c : Dev nD) : V3 m (outs m) c = V3 m (outsA m) c := by
  show StableHlo.after hostOps1 (Function.update (V1 m c) main_v1 (outs m 2 main_v1 c))
    = StableHlo.after hostOps1 (Function.update (V1 m c) main_v1 (outsA m 2 main_v1 c))
  rw [outs_v1, outsA_v1]

/-! ## The proof data family and the thread state -/

/-- The prefetched tables' admissible contents: no pipeline has a table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => R0.dat0 (VA m) c
  | ⟨1, _⟩ => fun c => R1.dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and no debt. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

/-- At region 0's exit each of its arrays holds what the pipeline leaves: the two inputs as entered, the output its
    write-backs. -/
theorem hF0 (c : Dev nD) (w : Fin cfg0.W) : (pdats m 0 c).arrAt w cfg0.N = V2 m (outs m) c (Pipeline.arrRef spec0 w) := by
  match w with
  | ⟨0, _⟩ => exact ((R0.dat0 (VA m) c).arrAt_in 0 rfl _).trans ((R0.A_eq0 (VA m) c 0).trans (V2_of m (outs m) c main_arg0 (by decide)).symm)
  | ⟨1, _⟩ => exact ((R0.dat0 (VA m) c).arrAt_in 1 rfl _).trans ((R0.A_eq0 (VA m) c 1).trans (V2_of m (outs m) c main_v0 (by decide)).symm)
  | ⟨2, _⟩ =>
    show o2 m c = Function.update (V1 m c) (Proc.devRef .tc main_v1) (outs m 2 main_v1 c) (Proc.devRef .tc main_v1)
    rw [Function.update_self, outs_v1]
/-- Every other buffer is as entered. -/
theorem hrest0 (c : Dev nD) : ∀ b, b ∉ Finset.univ.image (Pipeline.arrRef spec0) → V2 m (outs m) c b = V1 m c b :=
  fun b hb => V2_of m (outs m) c b (fun h => hb (by
    have : b = main_v1 := by simpa using h
    subst this; exact Finset.mem_image.mpr ⟨2, Finset.mem_univ _, rfl⟩))

set_option backward.isDefEq.respectTransparency.types false in
/-- REGION 0 (the projection): entered from every unscoped buffer at `V1`, left at `V2`. Its three arrays are distinct
    buffers: they are split out of the unscoped buffers at entry and put back at the exit contents; the generator
    register goes into the invariant and comes out; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (VA m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (VA m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- A core's unscoped buffers, one by one. -/
theorem held_list (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_v0) ↦{fullShare} W main_v0) ∗ (((c : Thread nD τ).loc main_v1) ↦{fullShare} W main_v1)
        ∗ (((c : Thread nD τ).loc main_v2) ↦{fullShare} W main_v2) ∗ (((c : Thread nD τ).loc main_v3) ↦{fullShare} W main_v3)
        ∗ (((c : Thread nD τ).loc main_v4) ↦{fullShare} W main_v4) ∗ (((c : Thread nD τ).loc main_v5) ↦{fullShare} W main_v5)) := by
  unfold StableHlo.held
  exact bigSep_eq_bigSepL_of_eq [Proc.devRef .tc main_arg0, Proc.devRef .tc main_arg1, Proc.devRef .tc main_v0, Proc.devRef .tc main_v1,
    Proc.devRef .tc main_v2, Proc.devRef .tc main_v3, Proc.devRef .tc main_v4, Proc.devRef .tc main_v5] (by decide) (by decide) _

/-- The pairwise pipeline's arrays, window by window: the transposed projection at the left half share (window 0) and
    at the right half (window 1), the features' array whole (window 2). -/
theorem arrays1 (c : Dev nD) (Fa : (w : Fin cfg1.W) → Buf (Elt F) ((cfg1.win w).arr.view.loc (c : Thread nD τ))) :
    ((pdats m 1 c).arrays Fa : sProp 𝕄)
      = iprop((((c : Thread nD τ).loc main_v3) ↦{fullShare.left} Fa 0) ∗ (((c : Thread nD τ).loc main_v3) ↦{fullShare.right} Fa 1)
        ∗ (((c : Thread nD τ).loc main_v4) ↦{fullShare} Fa 2)) := by
  unfold Dat.arrays
  have h0 : ((Pipeline.pin (pcfgs (F := F)) adm' 1).win (0 : Fin 3)).arr.view.set = Finset.univ := (arr_whole1 0).set_eq_univ
  have h1 : ((Pipeline.pin (pcfgs (F := F)) adm' 1).win (1 : Fin 3)).arr.view.set = Finset.univ := (arr_whole1 1).set_eq_univ
  have h2 : ((Pipeline.pin (pcfgs (F := F)) adm' 1).win (2 : Fin 3)).arr.view.set = Finset.univ := (arr_whole1 2).set_eq_univ
  rw [bigSep_W1, h0, h1, h2]
  rfl

/-- No table: the prefetched tables' conjunct is empty. -/
theorem prefHeld_none (p : Fin 2) (c : Dev nD) (q) (pf) :
    (Pipeline.prefHeld (Ix := Unit) (Name := ℕ) (U := UR sig nD τ) (Lvl := ℕ) (Val := Elt F) (pcfgs (F := F) p).pre c q pf : sProp 𝕄) = BI.emp := by
  unfold Pipeline.prefHeld; rw [show (Finset.univ : Finset (Fin 0)) = ∅ from rfl, BI.bigSep_empty]

/-- Off the features' array, region 1 leaves every buffer as it found it. -/
theorem V4_keep (c : Dev nD) (r : Ref sig .tc) (h : r ∉ ([main_v4] : List (Ref sig .tc))) : V4 m (outs m) c r = V3 m (outsA m) c r :=
  (V4_of m (outs m) c r h).trans (congrFun (V3_outs m c) _)
/-- The features' array ends at the pipeline's write-backs. -/
theorem V4_v4 (c : Dev nD) : V4 m (outs m) c main_v4 = o4 m c := by
  show Function.update (V3 m (outs m) c) (Proc.devRef .tc main_v4) (outs m 4 main_v4 c) (Proc.devRef .tc main_v4) = _
  rw [Function.update_self, outs_v4]

set_option backward.isDefEq.respectTransparency.types false in
/-- REGION 1 (the pairwise features): entered from every unscoped buffer at `V3`, left at `V4`. The transposed
    projection is read through both input windows: its full share is dealt in halves at entry and joined at exit, the
    array unchanged (an input array is never written); the features' array goes in whole and comes back at the
    pipeline's write-backs; every other unscoped buffer bypasses the region. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (R1.body_obligation1 (VB m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V3_outs, held_list, arrays1, unscopedRest1_eq, prefHeld_none]
    iintro ⟨⟨⟨Ha0, Ha1, Hv0, Hv1, Hv2, Hv3, Hv4, Hv5⟩, Hp, HO⟩, -, -⟩
    ihave H3 := (pointsTo_share (I := Finset.univ) (PosShare.mem_left_op_right fullShare)).1 $$ Hv3
    icases H3 with ⟨H3l, H3r⟩
    imodintro
    isplitl [H3l H3r Hv4]
    · isplitl [H3l]; · iexact H3l
      isplitl [H3r]; · iexact H3r
      iexact Hv4
    isplitr; · iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Hv0]; · iexact Hv0
    isplitl [Hv1]; · iexact Hv1
    isplitl [Hv2]; · iexact Hv2
    iexact Hv5
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have e0 : (pdats m 1 c).arrAt (0 : Fin 3) (Pipeline.pin (pcfgs (F := F)) adm' 1).N = V3 m (outsA m) c main_v3 := ((R1.dat1 (VB m) c).arrAt_in 0 rfl _).trans (R1.A_eq1 (VB m) c 0)
    have e1 : (pdats m 1 c).arrAt (1 : Fin 3) (Pipeline.pin (pcfgs (F := F)) adm' 1).N = V3 m (outsA m) c main_v3 := ((R1.dat1 (VB m) c).arrAt_in 1 rfl _).trans (R1.A_eq1 (VB m) c 1)
    have e2 : (pdats m 1 c).arrAt (2 : Fin 3) (Pipeline.pin (pcfgs (F := F)) adm' 1).N = o4 m c := rfl
    rw [arrays1, e0, e1, e2, held_list, unscopedRest1_eq, V4_keep m c main_arg0 (by decide), V4_keep m c main_arg1 (by decide),
      V4_keep m c main_v0 (by decide), V4_keep m c main_v1 (by decide), V4_keep m c main_v2 (by decide), V4_keep m c main_v3 (by decide),
      V4_keep m c main_v5 (by decide), V4_v4]
    iintro ⟨⟨H3l, H3r, H4⟩, HO, HY, ⟨Ha0, Ha1, Hv0, Hv1, Hv2, Hv5⟩⟩
    ihave H3 := (pointsTo_share (I := Finset.univ) (PosShare.mem_left_op_right fullShare)).2 $$ [H3l H3r]
    · isplitl [H3l]; · iexact H3l
      iexact H3r
    imodintro
    isplitl [Ha0 Ha1 Hv0 Hv1 Hv2 H3 H4 Hv5]
    · isplitl [Ha0]; · iexact Ha0
      isplitl [Ha1]; · iexact Ha1
      isplitl [Hv0]; · iexact Hv0
      isplitl [Hv1]; · iexact Hv1
      isplitl [Hv2]; · iexact Hv2
      isplitl [H3]; · iexact H3
      isplitl [H4]; · iexact H4
      iexact Hv5
    isplitl [HY]; · iexact HY
    unfold Pipeline.Dat.owesAt Pipeline.owesWithin
    icases HO with ⟨%W, -, HO⟩; iexists W; iexact HO

/-! ## The program as segments, and the run -/

/-- The program's five segments in order: a host segment per stretch of host operations from its boundary's contents,
    a region per kernel call. -/
abbrev segs : List (Pipeline.Seg (pcfgs (F := F)) adm' (pdats m) () defs₀ 𝒱₀ L lv) :=
  [ .host (hseg hostOps0 hostOps0_sub hostOps0_fresh (V0 m)),
    .region (reg0 m),
    .host (hseg hostOps1 hostOps1_sub hostOps1_fresh (V2 m (outs m))),
    .region (reg1 m),
    .host (hseg hostOps2 hostOps2_sub hostOps2_fresh (V4 m (outs m))) ]
/-- The program IS the run of the segments. -/
theorem main_run (c : Dev nD) : main (F := F) c = Pipeline.Seg.run (segs m) := (main_chain c).trans (by chain_rfl)

/-- The last thread state without the debt: every unscoped buffer at the last boundary's contents, the generator
    register at some state. -/
abbrev Tₙ (c : Dev nD) : sProp 𝕄 := iprop(StableHlo.held (c : Thread nD τ) (Pipeline.ucRefs τ sig) (V5 m (outs m) c) ∗ ∃ r, prngReg c r)

set_option backward.isDefEq.respectTransparency.types false in
/-- THE RUN. From any memory with zero counters, every weakly fair execution of the program on the TensorCores
    terminates, nothing faulting, and in every final state every unscoped buffer holds the last boundary's contents
    `V5`: the launch memory carried through the host operations and the two regions' results. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (V5 m (outs m) c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V5 m (outs m) c) s')
      isplitl [Hh] <;> iassumption)
    (hQ := fun s h c => h c)

/-- THE FRAME: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V5_main_arg0 m (outs m) c),
      (h c _ (mem_uc main_arg1 (by decide))).trans (V5_main_arg1 m (outs m) c)⟩) (run_all m ρ)

end Cert.Kernel.Asm

end
-- ==== Proof.Region0.lean ====
/- REGION 0 of the kernel program: the projection matmul (custom_call 0, pipeline 0, a grid of 4 points).
   Window 0 is the left operand's whole [256,1024] block (fetched once), window 1 the right operand's
   column block [1024,512], window 2 the output's column block [256,512], written back at every point.
   Stated at a parameter `V`, the TensorCore's buffer contents when the region is entered, and at any
   float instance. -/
import proofs.«175280_j70806830842566_2_alg».proof.Proof.Gen.KernelIdeal.Launch
import proofs.«175280_j70806830842566_2_alg».proof.Proof.Gen.KernelIdeal.Skeleton
import proofs.«175280_j70806830842566_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (its block index
    never moves), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its column block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x512 := Rect.unit (s := S1024x512) ![0, 0] S1024x512.size inb_S1024x512_S1024x512_0_0
abbrev r0_2 : Rect S256x512 := Rect.unit (s := S256x512) ![0, 0] S256x512.size inb_S256x512_S256x512_0_0

/-! ## What the body leaves in the output window's buffer -/

/-- Window 2's staging buffer after the body, from the input windows' blocks: its one store, of the product of
    the two loaded blocks. -/
def out0_2 (x0 : Vec F S256x1024 .f32) (x1 : Vec F S1024x512 .f32) : Vec F S256x512 .f32 :=
  View.canon [⟨r0_2, k0_pay1 (View.ld x0 r0_0) (View.ld x1 r0_1)⟩]

/-- The store is of the whole buffer, so it covers it. -/
theorem cover0_2 (p0 : Vec F S256x512 .f32) (y : S256x512.Idx) :
    ∃ pc ∈ ([⟨r0_2, p0⟩] : List (View.Piece (Elt F) S256x512 .f32)), y ∈ pc.1.set :=
  View.cover_of_tiled [⟨r0_2, p0⟩] S256x512.size (by rfl) y

/-! ## The body's triple -/

set_option maxHeartbeats 1000000 in
/-- The kernel body on whole staging memrefs, the inputs' at contents `x0`, `x1` and the output's at anything, runs
    to the continuation holding the inputs' as they were and the output's at `out0_2 x0 x1`. -/
theorem sound_kernel0 (c : Dev nD) (E : Set ℕ) (i : grid0.Coords) (arg1 : Memref sig .tc .vmem S256x1024 .f32) (harg1 : arg1.IsWhole)
    (arg2 : Memref sig .tc .vmem S1024x512 .f32) (harg2 : arg2.IsWhole) (arg3 : Memref sig .tc .vmem S256x512 .f32) (harg3 : arg3.IsWhole)
    (x0 : Vec F S256x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Runs.lean ====
import proofs.«175280_j70806830842566_2_alg».proof.Proof.Gen.KernelIdeal.Launch
import proofs.«175280_j70806830842566_2_alg».proof.Proof.Gen.KernelIdeal.Skeleton
import proofs.«175280_j70806830842566_2_alg».proof.Proof.Gen.KernelIdeal.Points
import Idealize.ShloMosaic.Lib.Pipeline.FrameBody
import Idealize.ShloMosaic.Lib.Ring
import Idealize.ShloMosaic.Lib.Tactic

/-! # The pairwise region: what its three control cases share

The pairwise kernel runs on a grid of 2 × 8 points `(i, j)`: row tile `i` (128 rows) against key tile `j` (32 rows). Its body
branches twice on `j`: at `j = 0` it first clears the output block, and at `j = 7` it finally subtracts `1.0` from it. So
a point is in one of three cases: first (`j = 0`), middle (`1 ≤ j ≤ 6`), last (`j = 7`). Here: the two conditions as the
body computes them from the coordinates, their closed forms over the 16 points, and the staging memrefs at a point. -/
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test, `j = 0`, as it computes it from the coordinates. -/
abbrev cond0 (i : grid1.Coords) : Prop := (Scalar.cmpi .ne (Scalar.extui (Scalar.cmpi .eq (BitVec.ofNat 32 (i 1).val) 0#32)) 0#32) = 1#1
/-- The body's second test, `j = 7`. -/
abbrev cond1 (i : grid1.Coords) : Prop := (Scalar.cmpi .ne (Scalar.extui (Scalar.cmpi .eq (BitVec.ofNat 32 (i 1).val) 7#32)) 0#32) = 1#1

/-- Point `t` is `(t / 8, t % 8)`: the first test holds exactly at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)
/-- The second test holds exactly at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-- One staging buffer of the output window, through which its contents are stated. -/
abbrev VO : View sig .tc .vmem S128x128 .f32 := (Memref.whole cc1_stg2_0 : Memref sig .tc .vmem S128x128 .f32).view
/-- Each window's current staging memref at point `t`, and its wholeness. -/
abbrev ms0 (t : Fin cfg1.N) : Memref sig .tc .vmem S128x16x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S32x16x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .f32 := win1_2.stage (cfg1.slots t 2)
abbrev hs2 (t : Fin cfg1.N) : (ms2 t).IsWhole := hstage1_2 ((cfg1.slots t 2).cast nbuf1_2)

end Cert.KernelIdeal.R1

end
-- ==== Proof.R1RunA.lean ====
import proofs.«175280_j70806830842566_2_alg».proof.Proof.R1Runs

/-! # The pairwise kernel's body in its first (`j = 0`) case: the run

On whole staging memrefs — the row tile's block `x0`, the key tile's block `x1` — the body runs to its end,
leaves both input blocks as they were and the output block with a list of pieces written: one per chunk of 8 rows, over the clearing store. The
pieces are found by the run itself. -/
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block in this case (last first), with the proof that the body runs to
    the continuation holding the inputs as they were and the output with those pieces written. -/
noncomputable def kernelRun_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i)
    (x0 : Vec F S128x16x128 .f32) (x1 : Vec F S32x16x128 .f32) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__pairwise_kernel i arg2 harg2 arg3 harg3 arg4 harg4) K } := by
  refine ⟨?_, fun E K => ?run⟩
  case run =>
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.R1RunB.lean ====
import proofs.«175280_j70806830842566_2_alg».proof.Proof.R1Runs

/-! # The pairwise kernel's body in its middle (`1 ≤ j ≤ 6`) case: the run

On whole staging memrefs — the row tile's block `x0`, the key tile's block `x1`, the output block's running contents `xo` — the body runs to its end,
leaves both input blocks as they were and the output block with a list of pieces written: one per chunk of 8 rows. The
pieces are found by the run itself. -/
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block in this case (last first), with the proof that the body runs to
    the continuation holding the inputs as they were and the output with those pieces written. -/
noncomputable def kernelRun_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i)
    (x0 : Vec F S128x16x128 .f32) (x1 : Vec F S32x16x128 .f32) (xo : Vec F S128x128 .f32) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__pairwise_kernel i arg2 harg2 arg3 harg3 arg4 harg4) K } := by
  refine ⟨?_, fun E K => ?run⟩
  case run =>
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.R1RunC.lean ====
import proofs.«175280_j70806830842566_2_alg».proof.Proof.R1Runs

/-! # The pairwise kernel's body in its last (`j = 7`) case: the run

On whole staging memrefs — the row tile's block `x0`, the key tile's block `x1`, the output block's running contents `xo` — the body runs to its end,
leaves both input blocks as they were and the output block with a list of pieces written: one per chunk of 8 rows, then the whole block once more (minus `1.0`). The
pieces are found by the run itself. -/
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block in this case (last first), with the proof that the body runs to
    the continuation holding the inputs as they were and the output with those pieces written. -/
noncomputable def kernelRun_C (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i)
    (x0 : Vec F S128x16x128 .f32) (x1 : Vec F S32x16x128 .f32) (xo : Vec F S128x128 .f32) :
    { L : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__pairwise_kernel i arg2 harg2 arg3 harg3 arg4 harg4) K } := by
  refine ⟨?_, fun E K => ?run⟩
  case run =>
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.R1Data.lean ====
import proofs.«175280_j70806830842566_2_alg».proof.Proof.R1RunA
import proofs.«175280_j70806830842566_2_alg».proof.Proof.R1RunB
import proofs.«175280_j70806830842566_2_alg».proof.Proof.R1RunC
import Idealize.ShloMosaic.Lib.Pipeline.RegionsLoop
import Idealize.ShloMosaic.Lib.Pipeline.FrameSuffix

/-! # The pairwise region: what its output block holds point by point, and the body obligation

At point `t = 8 i + j` the body reads the row tile's block (window 0, rows `128 i …`), the key tile's block (window 1, rows
`32 j …`) and — except at `j = 0`, where it clears it first — what the point before left in the output block (window 2),
to which it adds the key tile's contribution; at `j = 7` it subtracts `1.0` and the block is written back. So the output
block after point `t` is defined by recursion on the point (`outsAt`), each step one of the three cases' runs read back.
Both input windows read ONE array (the transposed projection), so each holds half a share of it. -/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (between two
    fetches its block index does not move), for any proof data over the region-entry arrays that leaves it in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end

/-! ## What each case leaves in the output block -/

/-- The first case's pieces cover the block. -/
theorem cover_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec F S128x16x128 .f32) (x1 : Vec F S32x16x128 .f32) (y : S128x128.Idx) :
    ∃ pc ∈ (kernelRun_A c i arg2 harg2 arg3 harg3 arg4 harg4 hc0 hc1 x0 x1).1, y ∈ pc.1.set :=
  View.cover_of_tiledL (kernelRun_A c i arg2 harg2 arg3 harg3 arg4 harg4 hc0 hc1 x0 x1).1 S128x128.size (by sl_kernel_rfl) y
/-- What the first case leaves in the output block: its pieces read back. -/
def out_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec F S128x16x128 .f32) (x1 : Vec F S32x16x128 .f32) : Vec F S128x128 .f32 :=
  VO.read (Elt F) (VO.writes (Elt F) VO.junk (kernelRun_A c i arg2 harg2 arg3 harg3 arg4 harg4 hc0 hc1 x0 x1).1)

theorem cover_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i) (x0 : Vec F S128x16x128 .f32) (x1 : Vec F S32x16x128 .f32) (xo : Vec F S128x128 .f32) (y : S128x128.Idx) :
    ∃ pc ∈ (kernelRun_B c i arg2 harg2 arg3 harg3 arg4 harg4 hc0 hc1 x0 x1 xo).1, y ∈ pc.1.set :=
  View.cover_of_tiledL (kernelRun_B c i arg2 harg2 arg3 harg3 arg4 harg4 hc0 hc1 x0 x1 xo).1 S8x128.size (by sl_kernel_rfl) y
def out_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i) (x0 : Vec F S128x16x128 .f32) (x1 : Vec F S32x16x128 .f32) (xo : Vec F S128x128 .f32) : Vec F S128x128 .f32 :=
  VO.read (Elt F) (VO.writes (Elt F) VO.junk (kernelRun_B c i arg2 harg2 arg3 harg3 arg4 harg4 hc0 hc1 x0 x1 xo).1)

theorem cover_C (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i) (x0 : Vec F S128x16x128 .f32) (x1 : Vec F S32x16x128 .f32) (xo : Vec F S128x128 .f32) (y : S128x128.Idx) :
    ∃ pc ∈ (kernelRun_C c i arg2 harg2 arg3 harg3 arg4 harg4 hc0 hc1 x0 x1 xo).1, y ∈ pc.1.set :=
  View.cover_of_tiledL (kernelRun_C c i arg2 harg2 arg3 harg3 arg4 harg4 hc0 hc1 x0 x1 xo).1 S128x128.size (by sl_kernel_rfl) y
def out_C (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i) (x0 : Vec F S128x16x128 .f32) (x1 : Vec F S32x16x128 .f32) (xo : Vec F S128x128 .f32) : Vec F S128x128 .f32 :=
  VO.read (Elt F) (VO.writes (Elt F) VO.junk (kernelRun_C c i arg2 harg2 arg3 harg3 arg4 harg4 hc0 hc1 x0 x1 xo).1)

section
variable (V : (c : Dev nD) → (b : Ref sig .tc) → Buf (Elt F) ((c : Thread nD τ).loc b))

/-! ## The accumulation, point by point -/

/-- The output block after the body at position `n`: the case the closed forms select, run at the point's memrefs and
    input blocks, over what the point before left (except in the first case, which clears the block). -/
def outsAt (c : Dev nD) : (n : ℕ) → n < cfg1.N → Vec F S128x128 .f32
  | 0, hn => out_A c (grid1.coords ⟨0, hn⟩) (ms0 ⟨0, hn⟩) (hs0 ⟨0, hn⟩) (ms1 ⟨0, hn⟩) (hs1 ⟨0, hn⟩) (ms2 ⟨0, hn⟩) (hs2 ⟨0, hn⟩)
      ((hcond0 ⟨0, hn⟩).mpr (Nat.zero_mod _)) (fun h => by have := (hcond1 ⟨0, hn⟩).mp h; dsimp only at this; omega) (iblk V c 0 ⟨0, hn⟩) (iblk V c 1 ⟨0, hn⟩)
  | n + 1, hn =>
    if h0 : (n + 1) % 8 = 0 then
      out_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond0 ⟨n + 1, hn⟩).mpr h0) (fun h => by have := (hcond1 ⟨n + 1, hn⟩).mp h; dsimp only at this; omega) (iblk V c 0 ⟨n + 1, hn⟩) (iblk V c 1 ⟨n + 1, hn⟩)
    else if h1 : (n + 1) % 8 = 7 then
      out_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) ((hcond1 ⟨n + 1, hn⟩).mpr h1) (iblk V c 0 ⟨n + 1, hn⟩) (iblk V c 1 ⟨n + 1, hn⟩) (outsAt c n (Nat.lt_of_succ_lt hn))
    else
      out_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) (fun h => h1 ((hcond1 ⟨n + 1, hn⟩).mp h)) (iblk V c 0 ⟨n + 1, hn⟩) (iblk V c 1 ⟨n + 1, hn⟩) (outsAt c n (Nat.lt_of_succ_lt hn))

/-- `outsAt` at a point of the first case. -/
theorem outsAt_A (c : Dev nD) (t : Fin cfg1.N) (h0 : t.val % 8 = 0) :
    outsAt V c t.val t.isLt = out_A c (grid1.coords t) (ms0 t) (hs0 t) (ms1 t) (hs1 t) (ms2 t) (hs2 t) ((hcond0 t).mpr h0)
      (fun h => by have := (hcond1 t).mp h; omega) (iblk V c 0 t) (iblk V c 1 t) := by
  obtain ⟨n, hn⟩ := t
  cases n with
  | zero => exact rfl
  | succ n => exact (dif_pos h0).trans rfl

/-- `outsAt` at a point of the last case: over what the point before left. -/
theorem outsAt_C (c : Dev nD) (t : Fin cfg1.N) (h0 : ¬t.val % 8 = 0) (h1 : t.val % 8 = 7) :
    outsAt V c t.val t.isLt = out_C c (grid1.coords t) (ms0 t) (hs0 t) (ms1 t) (hs1 t) (ms2 t) (hs2 t) (fun h => h0 ((hcond0 t).mp h))
      ((hcond1 t).mpr h1) (iblk V c 0 t) (iblk V c 1 t) (outsAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_pos h1).trans rfl)

/-- `outsAt` at a point of the middle case: over what the point before left. -/
theorem outsAt_B (c : Dev nD) (t : Fin cfg1.N) (h0 : ¬t.val % 8 = 0) (h1 : ¬t.val % 8 = 7) :
    outsAt V c t.val t.isLt = out_B c (grid1.coords t) (ms0 t) (hs0 t) (ms1 t) (hs1 t) (ms2 t) (hs2 t) (fun h => h0 ((hcond0 t).mp h))
      (fun h => h1 ((hcond1 t).mp h)) (iblk V c 0 t) (iblk V c 1 t) (outsAt V c (t.val - 1) (Nat.lt_of_le_of_lt (Nat.sub_le _ _) t.isLt)) := by
  obtain ⟨n, hn⟩ := t
  cases n with
  | zero => exact (by exfalso; exact absurd (Nat.zero_mod _) h0)
  | succ n => exact (dif_neg h0).trans ((dif_neg h1).trans rfl)

/-! ## The proof data -/

/-- The pairwise pipeline's proof data on core `c`: the arrays as the region finds them; after the body each input's
    buffer at its block and the output's at `outsAt`; the invariant the scoped rest and the generator register,
    untouched; nothing owed. The two input windows read one array: window 0 holds the left half of its share, window
    1 the right half. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outsAt V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = outsAt V c t.val t.isLt := by dsimp only [dat1]

theorem before1_0 (c : Dev nD) (t : Fin cfg1.N) (d) : (dat1 V c).before 0 t d = iblk V c 0 t :=
  before0_of V (dat1 V c) (A_eq1 V c 0) (after1_0 V c) t d
theorem before1_1 (c : Dev nD) (t : Fin cfg1.N) (d) : (dat1 V c).before 1 t d = iblk V c 1 t :=
  before1_of V (dat1 V c) (A_eq1 V c 1) (after1_1 V c) t d
/-- At a point that is not the first of its row tile the output block's buffer holds what the point before left: the
    block is written back only after the last key tile. -/
theorem before1_2 (c : Dev nD) (t : Fin cfg1.N) (h0 : ¬t.val % 8 = 0) (d) :
    (dat1 V c).before 2 t d = outsAt V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d)))

def bodyPost (c : Dev nD) (t : Fin cfg1.N) : sProp 𝕄 :=
  iprop((dat1 V c).Φ t.succ ∗ (dat1 V c).owesAt () t.succ
    ∗ owns (c : Thread nD τ) (ms0 t) fullShare ((dat1 V c).after 0 t)
    ∗ owns (c : Thread nD τ) (ms1 t) fullShare ((dat1 V c).after 1 t)
    ∗ owns (c : Thread nD τ) (ms2 t) fullShare ((dat1 V c).after 2 t))

set_option maxHeartbeats 1600000 in
/-- The body at any point: the inputs' memrefs hold their blocks; the closed forms say which case the point is in; in the
    middle and last cases the output's buffer holds what the point before left; so that case's run applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 16 := lt_of_lt_of_eq t.isLt (show cfg1.N = 16 from N_1)
  by_cases h0 : t.val % 8 = 0
  · rw [outsAt_A V c t h0]
    unfold out_A
    iintro ⟨HΦ, Ho, ⟨%d0, H0⟩, ⟨%d1, H1⟩, ⟨%d2, H2⟩⟩
    iapply ((kernelRun_A c (grid1.coords t) _ _ _ _ _ _ ((hcond0 t).mpr h0) (fun h => by have := (hcond1 t).mp h; omega) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _ _)
  · by_cases h1 : t.val % 8 = 7
    · rw [outsAt_C V c t h0 h1]
      simp only [before1_2 V c t h0]
      unfold out_C
      iintro ⟨HΦ, Ho, ⟨%d0, H0⟩, ⟨%d1, H1⟩, ⟨%d2, H2⟩⟩
      iapply ((kernelRun_C c (grid1.coords t) _ _ _ _ _ _ (fun h => h0 ((hcond0 t).mp h)) ((hcond1 t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _)
    · rw [outsAt_B V c t h0 h1]
      simp only [before1_2 V c t h0]
      unfold out_B
      iintro ⟨HΦ, Ho, ⟨%d0, H0⟩, ⟨%d1, H1⟩, ⟨%d2, H2⟩⟩
      iapply ((kernelRun_B c (grid1.coords t) _ _ _ _ _ _ (fun h => h0 ((hcond0 t).mp h)) (fun h => h1 ((hcond1 t).mp h)) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_B c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body V c t

end

end Cert.KernelIdeal.R1

end
-- ==== Proof.Asm.lean ====
import proofs.«175280_j70806830842566_2_alg».proof.Proof.Gen.KernelIdeal.Regions
import proofs.«175280_j70806830842566_2_alg».proof.Proof.Region0
import proofs.«175280_j70806830842566_2_alg».proof.Proof.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole program: its two kernel regions as segments of the host program, and the run

The host program is: reshape the tensor; REGION 0 (the projection, into `main_v1`); reshape and transpose the
projection (into `main_v3`); REGION 1 (the pairwise features, into `main_v4`); concatenate the batch and the
features. Between two items the core holds every unscoped buffer whole, at contents computed from the launch memory
(`Gen.V0 … Gen.V5`), beside its generator register and an empty debt. Region 1 reads ONE array, the transposed
projection, through both of its input windows: at its entry the array's full share is dealt in halves to the two
windows, and at its exit — an input array is never written, so both halves still hold the entry contents — the halves
are joined again. -/

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents, read at the TensorCore's references. -/
abbrev VA (c : Dev nD) (b : Ref sig .tc) : Buf (Elt F) ((c : Thread nD τ).loc b) := V1 m c b
/-- What region 0 leaves in the projection's array: its write-backs folded. -/
def o2 (c : Dev nD) : Buf (Elt F) ((c : Thread nD τ).loc main_v1) := (R0.dat0 (VA m) c).arrAt 2 cfg0.N
/-- The regions' results with only region 0's known. -/
def outsA : Outs (F := F) := fun _ r c => if h : r = main_v1 then h ▸ o2 m c else m ((c : Thread nD τ).loc r)
/-- Region 1's entry contents, read at the TensorCore's references. -/
abbrev VB (c : Dev nD) (b : Ref sig .tc) : Buf (Elt F) ((c : Thread nD τ).loc b) := V3 m (outsA m) c b
/-- What region 1 leaves in the features' array. -/
def o4 (c : Dev nD) : Buf (Elt F) ((c : Thread nD τ).loc main_v4) := (R1.dat1 (VB m) c).arrAt 2 cfg1.N
/-- What the two regions leave in the buffers they may change. -/
def outs : Outs (F := F) := fun _ r c =>
  if h : r = main_v1 then h ▸ o2 m c else if h4 : r = main_v4 then h4 ▸ o4 m c else m ((c : Thread nD τ).loc r)

theorem outsA_v1 (c : Dev nD) : outsA m 2 main_v1 c = o2 m c := by unfold outsA; rw [dif_pos rfl]
theorem outs_v1 (c : Dev nD) : outs m 2 main_v1 c = o2 m c := by unfold outs; rw [dif_pos rfl]
theorem outs_v4 (c : Dev nD) : outs m 4 main_v4 c = o4 m c := by unfold outs; rw [dif_neg (by decide), dif_pos rfl]
/-- Region 1 is entered from the same contents whichever table of results is read: only region 0's matters. -/
theorem V3_outs (c : Dev nD) : V3 m (outs m) c = V3 m (outsA m) c := by
  show StableHlo.after hostOps1 (Function.update (V1 m c) main_v1 (outs m 2 main_v1 c))
    = StableHlo.after hostOps1 (Function.update (V1 m c) main_v1 (outsA m 2 main_v1 c))
  rw [outs_v1, outsA_v1]

/-! ## The proof data family and the thread state -/

/-- The prefetched tables' admissible contents: no pipeline has a table. -/
abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => R0.dat0 (VA m) c
  | ⟨1, _⟩ => fun c => R1.dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and no debt. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

/-- At region 0's exit each of its arrays holds what the pipeline leaves: the two inputs as entered, the output its
    write-backs. -/
theorem hF0 (c : Dev nD) (w : Fin cfg0.W) : (pdats m 0 c).arrAt w cfg0.N = V2 m (outs m) c (Pipeline.arrRef spec0 w) := by
  match w with
  | ⟨0, _⟩ => exact ((R0.dat0 (VA m) c).arrAt_in 0 rfl _).trans ((R0.A_eq0 (VA m) c 0).trans (V2_of m (outs m) c main_arg0 (by decide)).symm)
  | ⟨1, _⟩ => exact ((R0.dat0 (VA m) c).arrAt_in 1 rfl _).trans ((R0.A_eq0 (VA m) c 1).trans (V2_of m (outs m) c main_v0 (by decide)).symm)
  | ⟨2, _⟩ =>
    show o2 m c = Function.update (V1 m c) (Proc.devRef .tc main_v1) (outs m 2 main_v1 c) (Proc.devRef .tc main_v1)
    rw [Function.update_self, outs_v1]
/-- Every other buffer is as entered. -/
theorem hrest0 (c : Dev nD) : ∀ b, b ∉ Finset.univ.image (Pipeline.arrRef spec0) → V2 m (outs m) c b = V1 m c b :=
  fun b hb => V2_of m (outs m) c b (fun h => hb (by
    have : b = main_v1 := by simpa using h
    subst this; exact Finset.mem_image.mpr ⟨2, Finset.mem_univ _, rfl⟩))

set_option backward.isDefEq.respectTransparency.types false in
/-- REGION 0 (the projection): entered from every unscoped buffer at `V1`, left at `V2`. Its three arrays are distinct
    buffers: they are split out of the unscoped buffers at entry and put back at the exit contents; the generator
    register goes into the invariant and comes out; nothing is owed; the kernel has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (VA m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (VA m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- A core's unscoped buffers, one by one. -/
theorem held_list (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_v0) ↦{fullShare} W main_v0) ∗ (((c : Thread nD τ).loc main_v1) ↦{fullShare} W main_v1)
        ∗ (((c : Thread nD τ).loc main_v2) ↦{fullShare} W main_v2) ∗ (((c : Thread nD τ).loc main_v3) ↦{fullShare} W main_v3)
        ∗ (((c : Thread nD τ).loc main_v4) ↦{fullShare} W main_v4) ∗ (((c : Thread nD τ).loc main_v5) ↦{fullShare} W main_v5)) := by
  unfold StableHlo.held
  exact bigSep_eq_bigSepL_of_eq [Proc.devRef .tc main_arg0, Proc.devRef .tc main_arg1, Proc.devRef .tc main_v0, Proc.devRef .tc main_v1,
    Proc.devRef .tc main_v2, Proc.devRef .tc main_v3, Proc.devRef .tc main_v4, Proc.devRef .tc main_v5] (by decide) (by decide) _

/-- The pairwise pipeline's arrays, window by window: the transposed projection at the left half share (window 0) and
    at the right half (window 1), the features' array whole (window 2). -/
theorem arrays1 (c : Dev nD) (Fa : (w : Fin cfg1.W) → Buf (Elt F) ((cfg1.win w).arr.view.loc (c : Thread nD τ))) :
    ((pdats m 1 c).arrays Fa : sProp 𝕄)
      = iprop((((c : Thread nD τ).loc main_v3) ↦{fullShare.left} Fa 0) ∗ (((c : Thread nD τ).loc main_v3) ↦{fullShare.right} Fa 1)
        ∗ (((c : Thread nD τ).loc main_v4) ↦{fullShare} Fa 2)) := by
  unfold Dat.arrays
  have h0 : ((Pipeline.pin (pcfgs (F := F)) adm' 1).win (0 : Fin 3)).arr.view.set = Finset.univ := (arr_whole1 0).set_eq_univ
  have h1 : ((Pipeline.pin (pcfgs (F := F)) adm' 1).win (1 : Fin 3)).arr.view.set = Finset.univ := (arr_whole1 1).set_eq_univ
  have h2 : ((Pipeline.pin (pcfgs (F := F)) adm' 1).win (2 : Fin 3)).arr.view.set = Finset.univ := (arr_whole1 2).set_eq_univ
  rw [bigSep_W1, h0, h1, h2]
  rfl

/-- No table: the prefetched tables' conjunct is empty. -/
theorem prefHeld_none (p : Fin 2) (c : Dev nD) (q) (pf) :
    (Pipeline.prefHeld (Ix := Unit) (Name := ℕ) (U := UR sig nD τ) (Lvl := ℕ) (Val := Elt F) (pcfgs (F := F) p).pre c q pf : sProp 𝕄) = BI.emp := by
  unfold Pipeline.prefHeld; rw [show (Finset.univ : Finset (Fin 0)) = ∅ from rfl, BI.bigSep_empty]

/-- Off the features' array, region 1 leaves every buffer as it found it. -/
theorem V4_keep (c : Dev nD) (r : Ref sig .tc) (h : r ∉ ([main_v4] : List (Ref sig .tc))) : V4 m (outs m) c r = V3 m (outsA m) c r :=
  (V4_of m (outs m) c r h).trans (congrFun (V3_outs m c) _)
/-- The features' array ends at the pipeline's write-backs. -/
theorem V4_v4 (c : Dev nD) : V4 m (outs m) c main_v4 = o4 m c := by
  show Function.update (V3 m (outs m) c) (Proc.devRef .tc main_v4) (outs m 4 main_v4 c) (Proc.devRef .tc main_v4) = _
  rw [Function.update_self, outs_v4]

set_option backward.isDefEq.respectTransparency.types false in
/-- REGION 1 (the pairwise features): entered from every unscoped buffer at `V3`, left at `V4`. The transposed
    projection is read through both input windows: its full share is dealt in halves at entry and joined at exit, the
    array unchanged (an input array is never written); the features' array goes in whole and comes back at the
    pipeline's write-backs; every other unscoped buffer bypasses the region. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (R1.body_obligation1 (VB m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V3_outs, held_list, arrays1, unscopedRest1_eq, prefHeld_none]
    iintro ⟨⟨⟨Ha0, Ha1, Hv0, Hv1, Hv2, Hv3, Hv4, Hv5⟩, Hp, HO⟩, -, -⟩
    ihave H3 := (pointsTo_share (I := Finset.univ) (PosShare.mem_left_op_right fullShare)).1 $$ Hv3
    icases H3 with ⟨H3l, H3r⟩
    imodintro
    isplitl [H3l H3r Hv4]
    · isplitl [H3l]; · iexact H3l
      isplitl [H3r]; · iexact H3r
      iexact Hv4
    isplitr; · iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Hv0]; · iexact Hv0
    isplitl [Hv1]; · iexact Hv1
    isplitl [Hv2]; · iexact Hv2
    iexact Hv5
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have e0 : (pdats m 1 c).arrAt (0 : Fin 3) (Pipeline.pin (pcfgs (F := F)) adm' 1).N = V3 m (outsA m) c main_v3 := ((R1.dat1 (VB m) c).arrAt_in 0 rfl _).trans (R1.A_eq1 (VB m) c 0)
    have e1 : (pdats m 1 c).arrAt (1 : Fin 3) (Pipeline.pin (pcfgs (F := F)) adm' 1).N = V3 m (outsA m) c main_v3 := ((R1.dat1 (VB m) c).arrAt_in 1 rfl _).trans (R1.A_eq1 (VB m) c 1)
    have e2 : (pdats m 1 c).arrAt (2 : Fin 3) (Pipeline.pin (pcfgs (F := F)) adm' 1).N = o4 m c := rfl
    rw [arrays1, e0, e1, e2, held_list, unscopedRest1_eq, V4_keep m c main_arg0 (by decide), V4_keep m c main_arg1 (by decide),
      V4_keep m c main_v0 (by decide), V4_keep m c main_v1 (by decide), V4_keep m c main_v2 (by decide), V4_keep m c main_v3 (by decide),
      V4_keep m c main_v5 (by decide), V4_v4]
    iintro ⟨⟨H3l, H3r, H4⟩, HO, HY, ⟨Ha0, Ha1, Hv0, Hv1, Hv2, Hv5⟩⟩
    ihave H3 := (pointsTo_share (I := Finset.univ) (PosShare.mem_left_op_right fullShare)).2 $$ [H3l H3r]
    · isplitl [H3l]; · iexact H3l
      iexact H3r
    imodintro
    isplitl [Ha0 Ha1 Hv0 Hv1 Hv2 H3 H4 Hv5]
    · isplitl [Ha0]; · iexact Ha0
      isplitl [Ha1]; · iexact Ha1
      isplitl [Hv0]; · iexact Hv0
      isplitl [Hv1]; · iexact Hv1
      isplitl [Hv2]; · iexact Hv2
      isplitl [H3]; · iexact H3
      isplitl [H4]; · iexact H4
      iexact Hv5
    isplitl [HY]; · iexact HY
    unfold Pipeline.Dat.owesAt Pipeline.owesWithin
    icases HO with ⟨%W, -, HO⟩; iexists W; iexact HO

/-! ## The program as segments, and the run -/

/-- The program's five segments in order: a host segment per stretch of host operations from its boundary's contents,
    a region per kernel call. -/
abbrev segs : List (Pipeline.Seg (pcfgs (F := F)) adm' (pdats m) () defs₀ 𝒱₀ L lv) :=
  [ .host (hseg hostOps0 hostOps0_sub hostOps0_fresh (V0 m)),
    .region (reg0 m),
    .host (hseg hostOps1 hostOps1_sub hostOps1_fresh (V2 m (outs m))),
    .region (reg1 m),
    .host (hseg hostOps2 hostOps2_sub hostOps2_fresh (V4 m (outs m))) ]
/-- The program IS the run of the segments. -/
theorem main_run (c : Dev nD) : main (F := F) c = Pipeline.Seg.run (segs m) := (main_chain c).trans (by chain_rfl)

/-- The last thread state without the debt: every unscoped buffer at the last boundary's contents, the generator
    register at some state. -/
abbrev Tₙ (c : Dev nD) : sProp 𝕄 := iprop(StableHlo.held (c : Thread nD τ) (Pipeline.ucRefs τ sig) (V5 m (outs m) c) ∗ ∃ r, prngReg c r)

set_option backward.isDefEq.respectTransparency.types false in
/-- THE RUN. From any memory with zero counters, every weakly fair execution of the program on the TensorCores
    terminates, nothing faulting, and in every final state every unscoped buffer holds the last boundary's contents
    `V5`: the launch memory carried through the host operations and the two regions' results. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V5 m (outs m) c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (V5 m (outs m) c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V5 m (outs m) c) s')
      isplitl [Hh] <;> iassumption)
    (hQ := fun s h c => h c)

/-- THE FRAME: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V5_main_arg0 m (outs m) c),
      (h c _ (mem_uc main_arg1 (by decide))).trans (V5_main_arg1 m (outs m) c)⟩) (run_all m ρ)

end Cert.KernelIdeal.Asm

end
-- ==== Proof.Region0Value.lean ====
/- REGION 0, the value half at the ideal values: after the projection's four grid points the output array
   is the whole matrix product of the two operand arrays as the region finds them. -/
import proofs.«175280_j70806830842566_2_alg».proof.Proof.Region0
import Idealize.ShloMosaic.Lib.Pipeline.Value
import Idealize.ShloMosaic.Lib.ValueIdx
import Idealize.ShloMosaic.PureOps.Ideal.Laws

set_option maxRecDepth 16384

noncomputable section

namespace Cert.KernelIdeal.R0V

open Cert.KernelIdeal Cert.KernelIdeal.Gen Cert.KernelIdeal.R0
open Idealize.ShloMosaic Idealize.ShloMosaic.TcCoe Idealize.SL.Sem
open Idealize.ShloMosaic.Pipeline (Dat)
open Idealize.ShloMosaic.ValueIdx

/-! ## The product, index by index -/

/-- The left operand's index for output index `i` and contraction coordinate `k`: (row of `i`, `k`). -/
abbrev lix {n : Nat} (i : (⟨2, ![256, n]⟩ : Shape).Idx) (k : Fin 1024) : S256x1024.Idx := fun a => match a with
  | ⟨0, _⟩ => ⟨(i 0).val, idx2_lt0 i⟩
  | ⟨1, _⟩ => ⟨k.val, k.isLt⟩
/-- The right operand's index: (`k`, column of `i`). -/
abbrev rix {n : Nat} (i : (⟨2, ![256, n]⟩ : Shape).Idx) (k : Fin 1024) : (⟨2, ![1024, n]⟩ : Shape).Idx := fun a => match a with
  | ⟨0, _⟩ => ⟨k.val, k.isLt⟩
  | ⟨1, _⟩ => ⟨(i 1).val, idx2_lt1 i⟩

/-- The matrix product of a [256,1024] array and a [1024,n] array, at the extended reals. -/
def prodArr {n : Nat} (X : S256x1024.Idx → EReal) (W : (⟨2, ![1024, n]⟩ : Shape).Idx → EReal) : (⟨2, ![256, n]⟩ : Shape).Idx → EReal :=
  fun i => ∑ k : Fin 1024, X (lix i k) * W (rix i k)

/-- At explicit coordinates. -/
theorem prodArr_ix2 {n : Nat} (X : S256x1024.Idx → EReal) (W : (⟨2, ![1024, n]⟩ : Shape).Idx → EReal) (b : Fin 256) (c : Fin n) :
    prodArr X W (ix2 b c) = ∑ k : Fin 1024, X (ix2 b k) * W (ix2 k c) := by
  unfold prodArr
  refine Finset.sum_congr rfl fun k _ => ?_
  have e0 : lix (ix2 b c) k = ix2 b k := funext fun a => by match a with | ⟨0, _⟩ => rfl | ⟨1, _⟩ => rfl
  have e1 : rix (ix2 b c) k = ix2 k c := funext fun a => by match a with | ⟨0, _⟩ => rfl | ⟨1, _⟩ => rfl
  rw [e0, e1]

/-! ## The body's payload at an index -/

/-- The projection's dimension numbers: contract the left operand's axis 1 with the right operand's axis 0. -/
abbrev D0 : DotDims S256x1024 S1024x512 S256x512 := dot_S256x1024_S1024x512_S256x512_1_0_0_1_n_n

theorem lhs_0 (i : S256x512.Idx) (q : D0.contr.Idx) : (D0.lhsIdx i q 0).val = (i 0).val := by
  unfold DotDims.lhsIdx
  rw [dif_neg (show ¬(0 : Fin S256x1024.rank) ∈ D0.lhsBatch by decide), dif_pos (show (0 : Fin S256x1024.rank) ∈ D0.lhsNonContracting by decide)]
  rfl
theorem lhs_1 (i : S256x512.Idx) (q : D0.contr.Idx) : (D0.lhsIdx i q 1).val = (q ⟨0, by decide⟩).val :=
  D0.lhsIdx_val_of_single rfl i q
theorem rhs_0 (i : S256x512.Idx) (q : D0.contr.Idx) : (D0.rhsIdx i q 0).val = (q ⟨0, by decide⟩).val :=
  D0.rhsIdx_val_of_single rfl i q
theorem rhs_1 (i : S256x512.Idx) (q : D0.contr.Idx) : (D0.rhsIdx i q 1).val = (i 1).val := by
  unfold DotDims.rhsIdx
  rw [dif_neg (show ¬(1 : Fin S1024x512.rank) ∈ D0.rhsBatch by decide), dif_pos (show (1 : Fin S1024x512.rank) ∈ D0.rhsNonContracting by decide)]
  rfl

/-- The stored value at an index of the output block: the sum over the contraction coordinate of the products of
    the two loaded blocks' elements (the roundings to bf16 and the shape cast are the identity at the ideal values,
    and the accumulator is the zero splat). -/
theorem pay_apply (x0 : Vec Ideal S256x1024 .f32) (x1 : Vec Ideal S1024x512 .f32) (i : S256x512.Idx) :
    k0_pay1 (F := Ideal) x0 x1 i = ∑ k : Fin 1024, x0 (lix i k) * x1 (rix i k) := by
  unfold k0_pay1
  rw [shapeCast_self]
  refine (Ideal.matmul_constant_zero_apply D0 none _ _ i).trans ?_
  rw [← Equiv.sum_comp (contrEquiv1 D0 1024 rfl rfl).symm]
  refine Finset.sum_congr rfl fun k _ => ?_
  have hk := contrEquiv1_symm_val D0 1024 rfl rfl k
  have el : D0.lhsIdx i ((contrEquiv1 D0 1024 rfl rfl).symm k) = lix i k := funext fun a => Fin.ext (by
    match a with
    | ⟨0, _⟩ => exact lhs_0 _ _
    | ⟨1, _⟩ => exact (lhs_1 _ _).trans hk)
  have er : D0.rhsIdx i ((contrEquiv1 D0 1024 rfl rfl).symm k) = rix i k := funext fun a => Fin.ext (by
    match a with
    | ⟨0, _⟩ => exact (rhs_0 _ _).trans hk
    | ⟨1, _⟩ => exact rhs_1 _ _)
  show x0 (D0.lhsIdx i ((contrEquiv1 D0 1024 rfl rfl).symm k)) * x1 (D0.rhsIdx i ((contrEquiv1 D0 1024 rfl rfl).symm k)) = _
  rw [el, er]

/-! ## From the blocks to the array -/

variable (V : (c : Dev nD) → (b : Ref sig .tc) → Buf (Elt Ideal) ((c : Thread nD τ).loc b))

/-- The left operand array as the region finds it, as a function on [256,1024] indices to the extended reals. -/
abbrev argX (c : Dev nD) : S256x1024.Idx → EReal := V c main_arg0
/-- The right operand array as the region finds it, on [1024,2048] indices. -/
abbrev argW (c : Dev nD) : S1024x2048.Idx → EReal := V c main_v0
/-- The output array after the region's write-backs, on [256,2048] indices. -/
abbrev outArr (c : Dev nD) : S256x2048.Idx → EReal := (dat0 (F := Ideal) V c).arrAt 2 cfg0.N

theorem hz : (![0, 0] : Fin 2 → Nat) = fun _ => 0 := funext fun a => by fin_cases a <;> rfl

/-- The printed index maps, decided over the grid: the left operand's block never moves, the right operand's
    column block moves with the output's, and the output's column block index stays below 4. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 3 :=
  (by decide +kernel : ∀ t : Fin grid0.N, _)

/-- Every column block of the output is some point's. -/
theorem idx_onto : ∀ q : Fin 4, ∃ t : Fin cfg0.N, win0_2.index t = ![0, q.val] :=
  (by decide +kernel : ∀ q : Fin 4, ∃ t : Fin grid0.N, win0_2.index t = ![0, q.val])

/-- What point `t` writes back is block `t` of the product of the two operand arrays as the region finds them. -/
theorem flushed_eq (c : Dev nD) (t : Fin cfg0.N) :
    (dat0 (F := Ideal) V c).flushed 2 t
      = ((cfg0.win 2).blk t).view.read (Elt Ideal) (prodArr (n := 2048) (V c main_arg0) (V c main_v0)) := by
  show (cfg0.win 2).cut (grid0.coords t) ((dat0 V c).after 2 t) = _
  rw [after0_2]
  unfold out0_2
  rw [View.canon_unit_zero hz]
  simp only [View.ld_unit_zero (S := S256x1024) hz, View.ld_unit_zero (S := S1024x512) hz]
  obtain ⟨e00, e01, e10, e11, e20, e21⟩ := idx_facts t
  funext j
  show k0_pay1 (F := Ideal) (iblk0 V c 0 t) (iblk0 V c 1 t) ((cfg0.win 2).xinj (grid0.coords t) j)
    = prodArr (n := 2048) (V c main_arg0) (V c main_v0) (((cfg0.win 2).blk t).view.emb j)
  refine (pay_apply _ _ _).trans ?_
  show ∑ k : Fin 1024, _ = ∑ k : Fin 1024, _
  refine Finset.sum_congr rfl fun k _ => ?_
  show argX V c (((cfg0.win 0).blk t).view.emb (lix ((cfg0.win 2).xinj (grid0.coords t) j) k))
      * argW V c (((cfg0.win 1).blk t).view.emb (rix ((cfg0.win 2).xinj (grid0.coords t) j) k))
    = argX V c (lix (((cfg0.win 2).blk t).view.emb j) k) * argW V c (rix (((cfg0.win 2).blk t).view.emb j) k)
  have hj0 : (j 0).val < 256 := (j 0).isLt
  have hj1 : (j 1).val < 512 := (j 1).isLt
  have h0 : ((cfg0.win 0).blk t).view.emb (lix ((cfg0.win 2).xinj (grid0.coords t) j) k) = lix (((cfg0.win 2).blk t).view.emb j) k := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 1024 + 1 * k.val = k.val; omega
  have h1 : ((cfg0.win 1).blk t).view.emb (rix ((cfg0.win 2).xinj (grid0.coords t) j) k) = rix (((cfg0.win 2).blk t).view.emb j) k := by
    funext a; apply Fin.ext
    match a with
    | ⟨0, _⟩ => show win0_1.index t (0 : Fin 2) * 1024 + 1 * k.val = k.val; omega
    | ⟨1, _⟩ => show win0_1.index t (1 : Fin 2) * 512 + 1 * (j 1).val = win0_2.index t (1 : Fin 2) * 512 + 1 * (j 1).val; omega
  rw [h0, h1]

/-- An index of the output array is in point `t`'s block iff each coordinate is in the block's range on its axis. -/
theorem mem_blk (t : Fin cfg0.N) (i : S256x2048.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v1).slice (win0_2.rect t)).set ↔ _
  rw [View.set_slice_whole, Rect.mem_set_unit]
  exact Iff.rfl

/-- The four column blocks cover the output array: column `n` is in the block of the point whose column block
    index is `n / 512`. -/
theorem cover (i : S256x2048.Idx) : ∃ t : Fin cfg0.N, (cfg0.win 2).flush t = true ∧ i ∈ ((cfg0.win 2).blk t).view.set := by
  have hi0 : (i 0).val < 256 := (i 0).isLt
  have hi1 : (i 1).val < 2048 := (i 1).isLt
  obtain ⟨t, ht⟩ := idx_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 512 ≤ (i 1).val ∧ (i 1).val < win0_2.index t (1 : Fin 2) * 512 + 512; omega

/-- THE OUTPUT ARRAY AFTER THE REGION is the whole product of the two operand arrays as the region finds them. -/
theorem arr0_final (c : Dev nD) :
    (dat0 (F := Ideal) V c).arrAt 2 cfg0.N = prodArr (n := 2048) (V c main_arg0) (V c main_v0) :=
  (dat0 (F := Ideal) V c).arrAt_eq_of_cover 2 (prodArr (n := 2048) (V c main_arg0) (V c main_v0)) (fun t _ => flushed_eq V c t) cover

/-- The same at explicit coordinates. -/
theorem arr0_final_apply (c : Dev nD) (b : Fin 256) (n : Fin 2048) :
    outArr V c (ix2 b n) = ∑ k : Fin 1024, argX V c (ix2 b k) * argW V c (ix2 k n) := by
  show ((dat0 (F := Ideal) V c).arrAt 2 cfg0.N : S256x2048.Idx → EReal) (ix2 b n) = _
  rw [arr0_final]
  exact prodArr_ix2 (n := 2048) (V c main_arg0) (V c main_v0) b n

/-- The input windows' arrays are never written: they end as the region found them. -/
theorem arr0_in0 (c : Dev nD) : (dat0 (F := Ideal) V c).arrAt 0 cfg0.N = V c main_arg0 :=
  ((dat0 (F := Ideal) V c).arrAt_in 0 rfl _).trans (A_eq0 V c 0)
theorem arr0_in1 (c : Dev nD) : (dat0 (F := Ideal) V c).arrAt 1 cfg0.N = V c main_v0 :=
  ((dat0 (F := Ideal) V c).arrAt_in 1 rfl _).trans (A_eq0 V c 1)

end Cert.KernelIdeal.R0V

end
-- ==== Proof.Spec.lean ====
import Idealize.ShloMosaic.PureOps.Ideal
import Idealize.ShloMosaic.PureOps.Ideal.Laws
import Idealize.ShloMosaic.Lib.ValueIdx

/-! # Minibatch discrimination: the function both programs compute

For a batch `x : [256, 1024]` and a tensor `T : [1024, 128, 16]`, project each row: `proj x T b o d = Σ_k x[b,k] · T[k,o,d]`.
The L1 distance of rows `i` and `j` in feature `o` is `Σ_d |proj i o d − proj j o d|`, and the feature of row `i` is the
sum over ALL rows `j` of `exp (− distance)`, minus the literal `1.0` (the row's own term). Everything is read on the
extended reals; sums are finite sums in a commutative monoid, so their order and grouping do not matter. -/

noncomputable section

open scoped BigOperators

namespace Cert.Spec

open Idealize.ShloMosaic Idealize.ShloMosaic.ValueIdx

/-- The batch's shape, the tensor's, and the feature array's. -/
abbrev SX : Shape := ⟨2, ![256, 1024]⟩
abbrev ST : Shape := ⟨3, ![1024, 128, 16]⟩
abbrev SF : Shape := ⟨2, ![256, 128]⟩

/-- The literal `1.0` both programs subtract. -/
abbrev one : EReal := Ideal.ofBits .f32 0x3F800000#32

/-- Row `b` projected: entry `(o, d)` of `x[b, :] · T[:, o, d]`. -/
def proj (x : SX.Idx → EReal) (T : ST.Idx → EReal) (b : Fin 256) (o : Fin 128) (d : Fin 16) : EReal :=
  ∑ k : Fin 1024, x (ix2 b k) * T (ix3 k o d)

/-- The L1 distance between the projections of rows `i` and `j` in feature `o`. -/
def dist (x : SX.Idx → EReal) (T : ST.Idx → EReal) (i j : Fin 256) (o : Fin 128) : EReal :=
  ∑ d : Fin 16, max (proj x T i o d - proj x T j o d) (-(proj x T i o d - proj x T j o d))

/-- Feature `o` of row `i`: the sum over every row `j` of `exp (− dist i j o)`, minus `1.0`. -/
def feat (x : SX.Idx → EReal) (T : ST.Idx → EReal) : SF.Idx → EReal := fun n =>
  (∑ j : Fin 256, Ideal.exp (-(dist x T (n 0) j (n 1)))) - one

theorem feat_ix2 (x : SX.Idx → EReal) (T : ST.Idx → EReal) (i : Fin 256) (o : Fin 128) :
    feat x T (ix2 i o) = (∑ j : Fin 256, Ideal.exp (-(dist x T i j o))) - one := rfl

end Cert.Spec

end
-- ==== Proof.R1Contrib.lean ====
import proofs.«175280_j70806830842566_2_alg».proof.Proof.Spec
import Idealize.ShloMosaic.Lib.ValueIdx

/-! # One key tile's contribution to a row's features, and the features of a whole array

For a row tile's block `x0 : [128, 16, 128]` and a key tile's block `x1 : [32, 16, 128]` (both cut from the transposed
projection `A[b, d, o]`), the key tile adds to feature `l` of row `r` the sum over its 32 rows `b` of
`exp (− Σ_d |x0[r,d,l] − x1[b,d,l]|)`. Summed over the 8 key tiles this is the sum over all 256 rows; minus `1.0` it is
the feature array `featA A`. -/

noncomputable section

open scoped BigOperators

namespace Cert.KernelIdeal.R1V

open Idealize.ShloMosaic Idealize.ShloMosaic.ValueIdx

/-- What one key tile adds to feature `l` of row `r` of the row tile. -/
def contrib (x0 : (⟨3, ![128, 16, 128]⟩ : Shape).Idx → EReal) (x1 : (⟨3, ![32, 16, 128]⟩ : Shape).Idx → EReal) (r l : Fin 128) : EReal :=
  ∑ b : Fin 32, Ideal.exp (-(∑ d : Fin 16, max (x0 (ix3 r d l) - x1 (ix3 b d l)) (-(x0 (ix3 r d l) - x1 (ix3 b d l)))))

/-- The features of the transposed projection `A[b, d, o]`: for row `i` and feature `o`, the sum over every row `j` of
    `exp (− Σ_d |A[i,d,o] − A[j,d,o]|)`, minus `1.0`. -/
def featA (A : (⟨3, ![256, 16, 128]⟩ : Shape).Idx → EReal) : (⟨2, ![256, 128]⟩ : Shape).Idx → EReal := fun n =>
  (∑ j : Fin 256, Ideal.exp (-(∑ d : Fin 16, max (A (ix3 (n 0) d (n 1)) - A (ix3 j d (n 1))) (-(A (ix3 (n 0) d (n 1)) - A (ix3 j d (n 1))))))) - Cert.Spec.one

end Cert.KernelIdeal.R1V

end
-- ==== Proof.HostReads.lean ====
import proofs.«175280_j70806830842566_2_alg».proof.Proof.Asm
import proofs.«175280_j70806830842566_2_alg».proof.Proof.Region0Value
import proofs.«175280_j70806830842566_2_alg».proof.Proof.Spec
import proofs.«175280_j70806830842566_2_alg».proof.Proof.R1Contrib
import Idealize.ShloMosaic.Lib.Pipeline.Value
import Idealize.ShloMosaic.Lib.ValueIdx
import Idealize.ShloMosaic.Lib.ValueLayout
import Idealize.ShloMosaic.Lib.StableHlo.Run

/-! # The host operations between the regions, read at an index

Region 1 reads the transposed projection `A[b, d, o]`. It is made from the launch arrays in four steps: the tensor
`T[k, o, d]` recast as a matrix `W[k, 16 o + d]`; region 0's product `P[b, n] = Σ_k x[b, k] · W[k, n]`; `P` recast as
`[b, o, d]` (so `n = 16 o + d`); the last two axes swapped. Hence `A[b, d, o] = Σ_k x[b, k] · T[k, o, d]`, the
specification's projection, and the features of `A` are the specification's features. -/

set_option maxRecDepth 16384

noncomputable section

open scoped BigOperators

namespace Cert.KernelIdeal.Bridge

open Cert.KernelIdeal Cert.KernelIdeal.Gen Cert.KernelIdeal.Asm
open Idealize.ShloMosaic Idealize.ShloMosaic.TcCoe Idealize.ShloMosaic.ValueIdx Idealize.SL.Sem

variable (m : (ℓ : Loc nD τ sig) → Buf (Elt Ideal) ℓ)

/-- The batch and the tensor as launched. -/
abbrev X (c : Dev nD) : S256x1024.Idx → EReal := m ((c : Thread nD τ).loc main_arg0)
abbrev T (c : Dev nD) : S1024x128x16.Idx → EReal := m ((c : Thread nD τ).loc main_arg1)

/-- Region 0 finds the batch as launched. -/
theorem VA_arg0 (c : Dev nD) : VA m c main_arg0 = X m c := V1_of m c main_arg0 (by decide)
/-- Region 0 finds the tensor recast as a matrix. -/
theorem VA_v0 (c : Dev nD) : (VA m c main_v0 : S1024x2048.Idx → EReal) = shapeCast _ (T m c) shapeCasts_S1024x128x16_S1024x2048 := by
  show StableHlo.after hostOps0 (fun b => m (c, b)) (Proc.devRef .tc main_v0) = _
  after_results
  rfl
/-- Region 1 finds, in the array both its input windows read, region 0's product recast and transposed. -/
theorem VB_v3 (c : Dev nD) : (VB m c main_v3 : S256x16x128.Idx → EReal)
    = transpose S256x16x128 [0, 2, 1] (shapeCast S256x128x16 (o2 m c : S256x2048.Idx → EReal) shapeCasts_S256x2048_S256x128x16) transposes_S256x128x16_S256x16x128_0_2_1 := by
  show StableHlo.after hostOps1 (V2 m (outsA m) c) (Proc.devRef .tc main_v3) = _
  after_results
  show transpose S256x16x128 [0, 2, 1] (shapeCast S256x128x16 (Function.update (V1 m c) (Proc.devRef .tc main_v1) (outsA m 2 main_v1 c) (Proc.devRef .tc main_v1)) _) _ = _
  rw [Function.update_self, outsA_v1]

/-- The tensor recast as a matrix, at column `16 o + d`. -/
theorem W_apply (c : Dev nD) (k : Fin 1024) (o : Fin 128) (d : Fin 16) :
    (shapeCast S1024x2048 (T m c) shapeCasts_S1024x128x16_S1024x2048) (ix2 k (⟨16 * o.val + d.val, by omega⟩ : Fin 2048)) = T m c (ix3 k o d) :=
  shapeCast_apply _ _ _ _ (by
    rw [Shape.rowMajor_val_three, Shape.rowMajor_val_two]
    show (k.val * 128 + o.val) * 16 + d.val = k.val * 2048 + (16 * o.val + d.val)
    omega)

/-- The array both input windows of region 1 read, and region 0's product, typed as arrays of extended reals. -/
abbrev Aarr (c : Dev nD) : S256x16x128.Idx → EReal := VB m c main_v3
abbrev Parr (c : Dev nD) : S256x2048.Idx → EReal := o2 m c

/-- THE TRANSPOSED PROJECTION is the specification's projection: `A[b, d, o] = Σ_k x[b, k] · T[k, o, d]`. -/
theorem A_apply (c : Dev nD) (b : Fin 256) (d : Fin 16) (o : Fin 128) :
    Aarr m c (ix3 b d o) = Cert.Spec.proj (X m c) (T m c) b o d := by
  show (VB m c main_v3 : S256x16x128.Idx → EReal) (ix3 b d o) = _
  rw [VB_v3, transpose_ix3_021_apply]
  rw [shapeCast_apply (Parr m c) shapeCasts_S256x2048_S256x128x16 (ix3 b o d) (ix2 b (⟨16 * o.val + d.val, by omega⟩ : Fin 2048)) (by
    show ((⟨2, ![256, 2048]⟩ : Shape).rowMajor (ix2 b (⟨16 * o.val + d.val, by omega⟩ : Fin 2048))).val = ((⟨3, ![256, 128, 16]⟩ : Shape).rowMajor (ix3 b o d)).val
    rw [Shape.rowMajor_val_three, Shape.rowMajor_val_two]
    show b.val * 2048 + (16 * o.val + d.val) = (b.val * 128 + o.val) * 16 + d.val
    omega)]
  show R0V.outArr (VA m) c (ix2 b _) = _
  rw [R0V.arr0_final_apply]
  unfold Cert.Spec.proj
  refine Finset.sum_congr rfl fun k _ => ?_
  rw [show R0V.argX (VA m) c = X m c from VA_arg0 m c, show R0V.argW (VA m) c = shapeCast S1024x2048 (T m c) shapeCasts_S1024x128x16_S1024x2048 from VA_v0 m c, W_apply]

/-- The features of the transposed projection are the specification's features of the launch arrays. -/
theorem featA_eq (c : Dev nD) : R1V.featA (Aarr m c) = Cert.Spec.feat (X m c) (T m c) := by
  funext n
  obtain ⟨i, o, rfl⟩ : ∃ (i : Fin 256) (o : Fin 128), n = ix2 i o := ⟨n 0, n 1, eq_ix2 n⟩
  show (∑ j : Fin 256, Ideal.exp (-(∑ d : Fin 16, max (Aarr m c (ix3 i d o) - Aarr m c (ix3 j d o)) (-(Aarr m c (ix3 i d o) - Aarr m c (ix3 j d o)))))) - Cert.Spec.one
    = (∑ j : Fin 256, Ideal.exp (-(Cert.Spec.dist (X m c) (T m c) i j o))) - Cert.Spec.one
  refine congrArg (· - Cert.Spec.one) (Finset.sum_congr rfl fun j _ => ?_)
  refine congrArg (fun z => Ideal.exp (-z)) ?_
  unfold Cert.Spec.dist
  refine Finset.sum_congr rfl fun d _ => ?_
  rw [A_apply, A_apply]

end Cert.KernelIdeal.Bridge

end
-- ==== Proof.R1Pay.lean ====
import proofs.«175280_j70806830842566_2_alg».proof.Proof.R1Data
import proofs.«175280_j70806830842566_2_alg».proof.Proof.R1Contrib
import Idealize.ShloMosaic.Lib.Pipeline.Value
import Idealize.ShloMosaic.PureOps.Ideal.Laws

/-! # The pairwise region: what each case leaves in the output block, read at an index

In each of its three cases the body's stores leave in the output block a list of pieces, one per chunk of 8 rows (16
chunks), found by the case's run. Chunk `c` stores at rows `8 c …` its previous contents there plus, at row `a` and lane
`l`, the sum over the key tile's 32 rows `b` of `exp (0 − norm)`, `norm` the 16-step left fold from zero of
`|x0[8 c + a, d, l] − x1[b, d, l]|` (the bf16 round trips are the identity on the extended reals). Read at an index, every
operation of a chunk's stored value is pushed to the index; the 16-step fold is the sum over `d`, and `0 − n = −n`: so
the chunk stores its previous contents plus the key tile's contribution `contrib x0 x1`. The pieces tile the block, so
the block reads as ONE function of its index:

* middle case: the previous contents plus the contribution;
* first case: the block is cleared first, every chunk's previous contents read zero (the rows a chunk loads are not
  under the chunks stored before it), so the block holds the contribution alone;
* last case: as the middle case, then the whole block is rewritten as itself minus `1.0`. -/

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

namespace Pay

open Lean Elab Tactic Meta in
/-- Open, in the goal, the auxiliary definitions a run's witness names its computed values by, except the lists of stores
    (`H…`) and the loads that earlier stores cover (`v…`), which stay folded. -/
elab "unfold_run_values" : tactic => do
  let g ← getMainGoal
  let isVal (n : Name) : Bool :=
    n.components.dropLast.any (· == `sl) && (match n with | .str _ s => !(s.startsWith "v") && !(s.startsWith "H") | _ => false)
  let t ← instantiateMVars (← g.getType)
  let t' ← Meta.deltaExpand t isVal
  replaceMainGoal [← g.replaceTargetDefEq t']

/-! ## Reading the body's loads, layout operations and lane sum at an index -/

section Layout
variable {α : Type} {Val : EltTy → Type} {e : EltTy}

/-- The 8-row chunk at row `o` of the row tile's block: its row `a` is row `o + a`. -/
theorem idx_rows3 (o : ℕ) (inb : ∀ a, (![o, 0, 0] : Fin 3 → ℕ) a + (![8, 16, 128] : Fin 3 → ℕ) a ≤ S128x16x128.size a)
    (a : Fin 8) (d : Fin 16) (l : Fin 128) :
    (Rect.unit (s := S128x16x128) ![o, 0, 0] ![8, 16, 128] inb).toLoadRect.idx (ix3 a d l)
      = ix3 ⟨o + a.val, by have h0 : o + 8 ≤ 128 := inb 0; have := a.isLt; omega⟩ d l := by
  refine funext fun q => Fin.ext ?_
  match q with
  | ⟨0, _⟩ => show o + 1 * a.val = o + a.val; omega
  | ⟨1, _⟩ => show 0 + 1 * d.val = d.val; omega
  | ⟨2, _⟩ => show 0 + 1 * l.val = l.val; omega

/-- Column `k` of the key tile's block. -/
theorem idx_col3 (k : ℕ) (inb : ∀ a, (![0, k, 0] : Fin 3 → ℕ) a + (![32, 1, 128] : Fin 3 → ℕ) a ≤ S32x16x128.size a)
    (b : Fin 32) (z : Fin 1) (l : Fin 128) :
    (Rect.unit (s := S32x16x128) ![0, k, 0] ![32, 1, 128] inb).toLoadRect.idx (ix3 b z l)
      = ix3 b ⟨k, by have h1 : k + 1 ≤ 16 := inb 1; omega⟩ l := by
  refine funext fun q => Fin.ext ?_
  match q with
  | ⟨0, _⟩ => show 0 + 1 * b.val = b.val; omega
  | ⟨1, _⟩ => show k + 1 * z.val = k; omega
  | ⟨2, _⟩ => show 0 + 1 * l.val = l.val; omega

/-- The 8-row chunk at row `o` of the output block: its row `a` is row `o + a`. -/
theorem idx_rows2 (o : ℕ) (inb : ∀ a, (![o, 0] : Fin 2 → ℕ) a + (![8, 128] : Fin 2 → ℕ) a ≤ S128x128.size a)
    (a : Fin 8) (l : Fin 128) :
    (Rect.unit (s := S128x128) ![o, 0] ![8, 128] inb).toLoadRect.idx (ix2 a l)
      = ix2 ⟨o + a.val, by have h0 : o + 8 ≤ 128 := inb 0; have := a.isLt; omega⟩ l := by
  refine funext fun q => Fin.ext ?_
  match q with
  | ⟨0, _⟩ => show o + 1 * a.val = o + a.val; omega
  | ⟨1, _⟩ => show 0 + 1 * l.val = l.val; omega

/-- The store rectangle of the chunk at row `o` places its row `a` at row `o + a`. -/
theorem emb_rows2 (o : ℕ) (inb : ∀ a, (![o, 0] : Fin 2 → ℕ) a + (![8, 128] : Fin 2 → ℕ) a ≤ S128x128.size a)
    (a : Fin 8) (l : Fin 128) :
    (Rect.unit (s := S128x128) ![o, 0] ![8, 128] inb).emb (ix2 a l)
      = ix2 ⟨o + a.val, by have h0 : o + 8 ≤ 128 := inb 0; have := a.isLt; omega⟩ l := by
  refine funext fun q => Fin.ext ?_
  match q with
  | ⟨0, _⟩ => show o + 1 * a.val = o + a.val; omega
  | ⟨1, _⟩ => show 0 + 1 * l.val = l.val; omega

/-- Column `k` cut out of an `[8, 16, 128]` value. -/
theorem slice_col (k : ℕ) (v : S8x16x128.Idx → α) (h : S8x16x128.Slices ![0, k, 0] S8x1x128) (a : Fin 8) (z : Fin 1) (l : Fin 128) :
    extractStridedSlice S8x1x128 ![0, k, 0] v h (ix3 a z l) = v (ix3 a ⟨k, by have h1 : k + 1 ≤ 16 := h.2 1; omega⟩ l) := by
  refine extractStridedSlice_apply _ v h _ _ fun q => ?_
  match q with
  | ⟨0, _⟩ => show a.val = 0 + a.val; omega
  | ⟨1, _⟩ => show k = k + z.val; omega
  | ⟨2, _⟩ => show l.val = 0 + l.val; omega

/-- Dropping a unit middle axis. -/
theorem cast_drop_mid {n : ℕ} (v : (⟨3, ![n, 1, 128]⟩ : Shape).Idx → α) (h : (⟨3, ![n, 1, 128]⟩ : Shape).ShapeCasts ⟨2, ![n, 128]⟩)
    (a : Fin n) (l : Fin 128) : shapeCast ⟨2, ![n, 128]⟩ v h (ix2 a l) = v (ix3 a 0 l) := by
  refine shapeCast_apply v h _ _ ?_
  rw [Shape.rowMajor_val_three, Shape.rowMajor_val_two]
  show (a.val * 1 + 0) * 128 + l.val = a.val * 128 + l.val
  omega

/-- Adding a unit middle axis. -/
theorem cast_add_mid {n : ℕ} (v : (⟨2, ![n, 128]⟩ : Shape).Idx → α) (h : (⟨2, ![n, 128]⟩ : Shape).ShapeCasts ⟨3, ![n, 1, 128]⟩)
    (a : Fin n) (z : Fin 1) (l : Fin 128) : shapeCast ⟨3, ![n, 1, 128]⟩ v h (ix3 a z l) = v (ix2 a l) := by
  refine shapeCast_apply v h _ _ ?_
  rw [Shape.rowMajor_val_three, Shape.rowMajor_val_two]
  show a.val * 128 + l.val = (a.val * 1 + z.val) * 128 + l.val
  omega

/-- Adding a unit leading axis. -/
theorem cast_add_lead {n : ℕ} (v : (⟨2, ![n, 128]⟩ : Shape).Idx → α) (h : (⟨2, ![n, 128]⟩ : Shape).ShapeCasts ⟨3, ![1, n, 128]⟩)
    (z : Fin 1) (b : Fin n) (l : Fin 128) : shapeCast ⟨3, ![1, n, 128]⟩ v h (ix3 z b l) = v (ix2 b l) := by
  refine shapeCast_apply v h _ _ ?_
  rw [Shape.rowMajor_val_three, Shape.rowMajor_val_two]
  show b.val * 128 + l.val = (z.val * n + b.val) * 128 + l.val
  have : z.val = 0 := by omega
  rw [this]; simp

/-- Broadcasting along the middle axis. -/
theorem bcast_mid (v : S8x1x128.Idx → α) (h : S8x1x128.Broadcasts S8x32x128) (a : Fin 8) (b : Fin 32) (l : Fin 128) :
    broadcastTo S8x32x128 v h (ix3 a b l) = v (ix3 a 0 l) := by
  refine broadcastTo_apply v h _ _ fun q => ?_
  match q with
  | ⟨0, _⟩ => rfl
  | ⟨1, _⟩ => rfl
  | ⟨2, _⟩ => rfl

/-- Broadcasting along the leading axis. -/
theorem bcast_lead (v : S1x32x128.Idx → α) (h : S1x32x128.Broadcasts S8x32x128) (a : Fin 8) (b : Fin 32) (l : Fin 128) :
    broadcastTo S8x32x128 v h (ix3 a b l) = v (ix3 0 b l) := by
  refine broadcastTo_apply v h _ _ fun q => ?_
  match q with
  | ⟨0, _⟩ => rfl
  | ⟨1, _⟩ => rfl
  | ⟨2, _⟩ => rfl

end Layout

theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-- The lane sum over the 32 key rows. -/
theorem sum_rows (v : FVec Ideal S8x32x128 .f32) (h : S8x32x128.Reduces [1] S8x128) (hφ : FKind.Formats .f32)
    (hacc : (0x00000000#32 : BitVec 32) = FKind.add.neutral .f32 hφ) (a : Fin 8) (l : Fin 128) :
    multiReduction .add [1] S8x128 v 0x00000000#32 h hφ hacc (ix2 a l) = ∑ b : Fin 32, v (ix3 a b l) := by
  refine (Ideal.multiReduction_add_single v 0x00000000#32 h hφ hacc (ix2 a l)).trans ?_
  refine Finset.sum_congr rfl fun b _ => congrArg v (funext fun q => ?_)
  match q with
  | ⟨0, _⟩ => rfl
  | ⟨1, _⟩ => rfl
  | ⟨2, _⟩ => rfl

/-- The 16-step left fold from zero is the sum over the 16 columns. -/
theorem fold16 (f : Fin 16 → EReal) :
    0 + f 0 + f 1 + f 2 + f 3 + f 4 + f 5 + f 6 + f 7 + f 8 + f 9 + f 10 + f 11 + f 12 + f 13 + f 14 + f 15 = ∑ d : Fin 16, f d := by
  simp [Fin.sum_univ_succ, add_assoc]

/-- One key tile's contribution, written as the body computes it: each distance a 16-step left fold from zero, negated as
    `0 - ·`. -/
theorem contrib_nf (x0 : Vec Ideal S128x16x128 .f32) (x1 : Vec Ideal S32x16x128 .f32) (r l : Fin 128) :
    contrib x0 x1 r l = ∑ b : Fin 32, Ideal.exp (0 - (0
      + max (x0 (ix3 r ⟨0, by decide⟩ l) - x1 (ix3 b ⟨0, by decide⟩ l)) (-(x0 (ix3 r ⟨0, by decide⟩ l) - x1 (ix3 b ⟨0, by decide⟩ l)))
      + max (x0 (ix3 r ⟨1, by decide⟩ l) - x1 (ix3 b ⟨1, by decide⟩ l)) (-(x0 (ix3 r ⟨1, by decide⟩ l) - x1 (ix3 b ⟨1, by decide⟩ l)))
      + max (x0 (ix3 r ⟨2, by decide⟩ l) - x1 (ix3 b ⟨2, by decide⟩ l)) (-(x0 (ix3 r ⟨2, by decide⟩ l) - x1 (ix3 b ⟨2, by decide⟩ l)))
      + max (x0 (ix3 r ⟨3, by decide⟩ l) - x1 (ix3 b ⟨3, by decide⟩ l)) (-(x0 (ix3 r ⟨3, by decide⟩ l) - x1 (ix3 b ⟨3, by decide⟩ l)))
      + max (x0 (ix3 r ⟨4, by decide⟩ l) - x1 (ix3 b ⟨4, by decide⟩ l)) (-(x0 (ix3 r ⟨4, by decide⟩ l) - x1 (ix3 b ⟨4, by decide⟩ l)))
      + max (x0 (ix3 r ⟨5, by decide⟩ l) - x1 (ix3 b ⟨5, by decide⟩ l)) (-(x0 (ix3 r ⟨5, by decide⟩ l) - x1 (ix3 b ⟨5, by decide⟩ l)))
      + max (x0 (ix3 r ⟨6, by decide⟩ l) - x1 (ix3 b ⟨6, by decide⟩ l)) (-(x0 (ix3 r ⟨6, by decide⟩ l) - x1 (ix3 b ⟨6, by decide⟩ l)))
      + max (x0 (ix3 r ⟨7, by decide⟩ l) - x1 (ix3 b ⟨7, by decide⟩ l)) (-(x0 (ix3 r ⟨7, by decide⟩ l) - x1 (ix3 b ⟨7, by decide⟩ l)))
      + max (x0 (ix3 r ⟨8, by decide⟩ l) - x1 (ix3 b ⟨8, by decide⟩ l)) (-(x0 (ix3 r ⟨8, by decide⟩ l) - x1 (ix3 b ⟨8, by decide⟩ l)))
      + max (x0 (ix3 r ⟨9, by decide⟩ l) - x1 (ix3 b ⟨9, by decide⟩ l)) (-(x0 (ix3 r ⟨9, by decide⟩ l) - x1 (ix3 b ⟨9, by decide⟩ l)))
      + max (x0 (ix3 r ⟨10, by decide⟩ l) - x1 (ix3 b ⟨10, by decide⟩ l)) (-(x0 (ix3 r ⟨10, by decide⟩ l) - x1 (ix3 b ⟨10, by decide⟩ l)))
      + max (x0 (ix3 r ⟨11, by decide⟩ l) - x1 (ix3 b ⟨11, by decide⟩ l)) (-(x0 (ix3 r ⟨11, by decide⟩ l) - x1 (ix3 b ⟨11, by decide⟩ l)))
      + max (x0 (ix3 r ⟨12, by decide⟩ l) - x1 (ix3 b ⟨12, by decide⟩ l)) (-(x0 (ix3 r ⟨12, by decide⟩ l) - x1 (ix3 b ⟨12, by decide⟩ l)))
      + max (x0 (ix3 r ⟨13, by decide⟩ l) - x1 (ix3 b ⟨13, by decide⟩ l)) (-(x0 (ix3 r ⟨13, by decide⟩ l) - x1 (ix3 b ⟨13, by decide⟩ l)))
      + max (x0 (ix3 r ⟨14, by decide⟩ l) - x1 (ix3 b ⟨14, by decide⟩ l)) (-(x0 (ix3 r ⟨14, by decide⟩ l) - x1 (ix3 b ⟨14, by decide⟩ l)))
      + max (x0 (ix3 r ⟨15, by decide⟩ l) - x1 (ix3 b ⟨15, by decide⟩ l)) (-(x0 (ix3 r ⟨15, by decide⟩ l) - x1 (ix3 b ⟨15, by decide⟩ l))))) := by
  unfold contrib
  refine Finset.sum_congr rfl fun b _ => ?_
  rw [zero_sub]
  refine congrArg (fun t => Ideal.exp (-t)) ?_
  exact (fold16 (fun d => max (x0 (ix3 r d l) - x1 (ix3 b d l)) (-(x0 (ix3 r d l) - x1 (ix3 b d l))))).symm

/-- One chunk's stored value read at an index of the chunk: the payload definitions opened, every operation pushed to
    the index, the lane sum read as a sum over the 32 key rows. -/
macro "chunk_read" : tactic => `(tactic| (
  simp only [View.readAt_eq_ld, Memref.IsWhole.read_unread,
    k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201,
    addf_apply, subf_apply, extf_apply, truncf_apply, broadcast_apply, exp_apply, absf_apply, shapeCast_self,
    sum_rows, slice_col, cast_drop_mid, cast_add_mid, cast_add_lead, bcast_mid, bcast_lead, View.ld, idx_rows3, idx_col3, idx_rows2, emb_rows2,
    Ideal.ofBits_def, Ideal.ofBits_zero_f32]
  refine (congrArg (_ + ·) (sum_rows _ _ _ _ _ _)).trans ?_
  simp only [View.readAt_eq_ld, Memref.IsWhole.read_unread,
    k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, k1_pay180, k1_pay181, k1_pay182, k1_pay183, k1_pay184, k1_pay185, k1_pay186, k1_pay187, k1_pay188, k1_pay189, k1_pay190, k1_pay191, k1_pay192, k1_pay193, k1_pay194, k1_pay195, k1_pay196, k1_pay197, k1_pay198, k1_pay199, k1_pay200, k1_pay201,
    addf_apply, subf_apply, extf_apply, truncf_apply, broadcast_apply, exp_apply, absf_apply, shapeCast_self,
    sum_rows, slice_col, cast_drop_mid, cast_add_mid, cast_add_lead, bcast_mid, bcast_lead, View.ld, idx_rows3, idx_col3, idx_rows2, emb_rows2,
    Ideal.ofBits_def, Ideal.ofBits_zero_f32]))

/-! ## The middle case -/

/-- What the middle case leaves in the output block, as one function of the block index. -/
def GB (x0 : Vec Ideal S128x16x128 .f32) (x1 : Vec Ideal S32x16x128 .f32) (xo : Vec Ideal S128x128 .f32) : S128x128.Idx → EReal :=
  fun y => xo y + contrib x0 x1 (y 0) (y 1)

theorem GB_apply (x0 : Vec Ideal S128x16x128 .f32) (x1 : Vec Ideal S32x16x128 .f32) (xo : Vec Ideal S128x128 .f32) (r l : Fin 128) :
    GB x0 x1 xo (ix2 r l) = xo (ix2 r l) + contrib x0 x1 r l := rfl

set_option maxHeartbeats 4000000 in
/-- Each of the 16 chunk stores of the middle case holds the previous contents plus the key tile's contribution at its rows. -/
theorem pieces_B (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i) (x0 : Vec Ideal S128x16x128 .f32) (x1 : Vec Ideal S32x16x128 .f32) (xo : Vec Ideal S128x128 .f32) :
    ∀ p ∈ (kernelRun_B c i arg2 harg2 arg3 harg3 arg4 harg4 hc0 hc1 x0 x1 xo).1, ∀ x : p.1.shape.Idx, p.2 x = GB x0 x1 xo (p.1.emb x) := by
  unfold kernelRun_B
  dsimp only
  sl_unfold_run_names
  repeat' (first | exact fun _ h => absurd h List.not_mem_nil | refine List.forall_mem_cons.mpr ⟨?_, ?_⟩)
  all_goals (
    intro x
    obtain ⟨a, l, rfl⟩ : ∃ (a : Fin 8) (l : Fin 128), x = ix2 a l := ⟨x 0, x 1, eq_ix2 x⟩
    dsimp only
    chunk_read
    rw [GB_apply, contrib_nf])

/-! ## The first case: the block is cleared first, so each chunk's previous contents read zero -/

section Skip
variable {Val : EltTy → Type} [∀ e, Nonempty (Val e)]

/-- A row at or below the end of a chunk's store is not under it: the canon reads the earlier stores there. -/
theorem canon_skip_rows (o : ℕ) (inb : ∀ a, (![o, 0] : Fin 2 → ℕ) a + (![8, 128] : Fin 2 → ℕ) a ≤ S128x128.size a)
    (w : (Rect.unit (s := S128x128) ![o, 0] ![8, 128] inb).shape.Idx → Val .f32) (L : List (View.Piece Val S128x128 .f32))
    (r l : Fin 128) (h : o + 8 ≤ r.val) :
    View.canon ((⟨Rect.unit (s := S128x128) ![o, 0] ![8, 128] inb, w⟩ : View.Piece Val S128x128 .f32) :: L) (ix2 r l) = View.canon L (ix2 r l) := by
  refine View.canon_cons_of_not_mem _ _ fun hm => ?_
  have hm' : ix2 r l ∈ (Rect.unit (s := S128x128) ![o, 0] ![8, 128] inb).set := hm
  have h1 : o ≤ r.val ∧ r.val < o + 8 := (Rect.mem_set_unit.mp hm') (0 : Fin 2)
  omega

/-- The canon of a list whose leading part agrees with one function `G` of the block index, at an index the leading part
    covers, is `G` there, whatever the rest of the list holds. -/
theorem canon_append_of_pieces {S : Shape} {e : EltTy} (G : S.Idx → Val e) :
    ∀ (L M : List (View.Piece Val S e)) (_ : ∀ p ∈ L, ∀ x : p.1.shape.Idx, p.2 x = G (p.1.emb x)) (y : S.Idx)
      (_ : ∃ p ∈ L, y ∈ p.1.set), View.canon (L ++ M) y = G y
  | [], _, _, _, hy => by obtain ⟨p, hp, _⟩ := hy; simp at hp
  | p :: L, M, hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_append_of_pieces G L M (fun q hq => hL q (by simp [hq])) y ?_
      obtain ⟨q, hq, hyq⟩ := hy
      rcases List.mem_cons.mp hq with rfl | hq'
      · exact absurd hyq hm
      · exact ⟨q, hq', hyq⟩

end Skip

theorem zeros2 : (![0, 0] : Fin 2 → ℕ) = fun _ => 0 := by
  funext a
  match a with
  | ⟨0, _⟩ => rfl
  | ⟨1, _⟩ => rfl

/-- After the clearing store alone the block reads zero. -/
theorem H2_zero_1 (r l : Fin 128) : View.canon (kernelRun_A.sl.H2_1 (F := Ideal)) (ix2 r l) = 0 := by
  unfold kernelRun_A.sl.H2_1
  rw [View.canon_unit_zero zeros2]
  simp only [k1_pay3, broadcast_apply, Ideal.ofBits_def, Ideal.ofBits_zero_f32]

/-- After the clearing store and the first 1 chunks, the rows from 8 on still read zero. -/
theorem H2_zero_2 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 8 ≤ r.val) :
    View.canon (kernelRun_A.sl.H2_2 (F := Ideal) c arg2 harg2 arg3 harg3 arg4 x0 x1) (ix2 r l) = 0 := by
  unfold kernelRun_A.sl.H2_2
  exact (canon_skip_rows 0 _ _ _ r l (by omega)).trans (H2_zero_1 r l)

/-- After the clearing store and the first 2 chunks, the rows from 16 on still read zero. -/
theorem H2_zero_3 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 16 ≤ r.val) :
    View.canon (kernelRun_A.sl.H2_3 (F := Ideal) c arg2 harg2 arg3 harg3 arg4 x0 x1) (ix2 r l) = 0 := by
  unfold kernelRun_A.sl.H2_3
  exact (canon_skip_rows 8 _ _ _ r l (by omega)).trans (H2_zero_2 c arg2 harg2 arg3 harg3 arg4 x0 x1 r l (by omega))

/-- After the clearing store and the first 3 chunks, the rows from 24 on still read zero. -/
theorem H2_zero_4 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 24 ≤ r.val) :
    View.canon (kernelRun_A.sl.H2_4 (F := Ideal) c arg2 harg2 arg3 harg3 arg4 x0 x1) (ix2 r l) = 0 := by
  unfold kernelRun_A.sl.H2_4
  exact (canon_skip_rows 16 _ _ _ r l (by omega)).trans (H2_zero_3 c arg2 harg2 arg3 harg3 arg4 x0 x1 r l (by omega))

/-- After the clearing store and the first 4 chunks, the rows from 32 on still read zero. -/
theorem H2_zero_5 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 32 ≤ r.val) :
    View.canon (kernelRun_A.sl.H2_5 (F := Ideal) c arg2 harg2 arg3 harg3 arg4 x0 x1) (ix2 r l) = 0 := by
  unfold kernelRun_A.sl.H2_5
  exact (canon_skip_rows 24 _ _ _ r l (by omega)).trans (H2_zero_4 c arg2 harg2 arg3 harg3 arg4 x0 x1 r l (by omega))

/-- After the clearing store and the first 5 chunks, the rows from 40 on still read zero. -/
theorem H2_zero_6 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 40 ≤ r.val) :
    View.canon (kernelRun_A.sl.H2_6 (F := Ideal) c arg2 harg2 arg3 harg3 arg4 x0 x1) (ix2 r l) = 0 := by
  unfold kernelRun_A.sl.H2_6
  exact (canon_skip_rows 32 _ _ _ r l (by omega)).trans (H2_zero_5 c arg2 harg2 arg3 harg3 arg4 x0 x1 r l (by omega))

/-- After the clearing store and the first 6 chunks, the rows from 48 on still read zero. -/
theorem H2_zero_7 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 48 ≤ r.val) :
    View.canon (kernelRun_A.sl.H2_7 (F := Ideal) c arg2 harg2 arg3 harg3 arg4 x0 x1) (ix2 r l) = 0 := by
  unfold kernelRun_A.sl.H2_7
  exact (canon_skip_rows 40 _ _ _ r l (by omega)).trans (H2_zero_6 c arg2 harg2 arg3 harg3 arg4 x0 x1 r l (by omega))

/-- After the clearing store and the first 7 chunks, the rows from 56 on still read zero. -/
theorem H2_zero_8 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 56 ≤ r.val) :
    View.canon (kernelRun_A.sl.H2_8 (F := Ideal) c arg2 harg2 arg3 harg3 arg4 x0 x1) (ix2 r l) = 0 := by
  unfold kernelRun_A.sl.H2_8
  exact (canon_skip_rows 48 _ _ _ r l (by omega)).trans (H2_zero_7 c arg2 harg2 arg3 harg3 arg4 x0 x1 r l (by omega))

/-- After the clearing store and the first 8 chunks, the rows from 64 on still read zero. -/
theorem H2_zero_9 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 64 ≤ r.val) :
    View.canon (kernelRun_A.sl.H2_9 (F := Ideal) c arg2 harg2 arg3 harg3 arg4 x0 x1) (ix2 r l) = 0 := by
  unfold kernelRun_A.sl.H2_9
  exact (canon_skip_rows 56 _ _ _ r l (by omega)).trans (H2_zero_8 c arg2 harg2 arg3 harg3 arg4 x0 x1 r l (by omega))

/-- After the clearing store and the first 9 chunks, the rows from 72 on still read zero. -/
theorem H2_zero_10 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 72 ≤ r.val) :
    View.canon (kernelRun_A.sl.H2_10 (F := Ideal) c arg2 harg2 arg3 harg3 arg4 x0 x1) (ix2 r l) = 0 := by
  unfold kernelRun_A.sl.H2_10
  exact (canon_skip_rows 64 _ _ _ r l (by omega)).trans (H2_zero_9 c arg2 harg2 arg3 harg3 arg4 x0 x1 r l (by omega))

/-- After the clearing store and the first 10 chunks, the rows from 80 on still read zero. -/
theorem H2_zero_11 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 80 ≤ r.val) :
    View.canon (kernelRun_A.sl.H2_11 (F := Ideal) c arg2 harg2 arg3 harg3 arg4 x0 x1) (ix2 r l) = 0 := by
  unfold kernelRun_A.sl.H2_11
  exact (canon_skip_rows 72 _ _ _ r l (by omega)).trans (H2_zero_10 c arg2 harg2 arg3 harg3 arg4 x0 x1 r l (by omega))

/-- After the clearing store and the first 11 chunks, the rows from 88 on still read zero. -/
theorem H2_zero_12 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 88 ≤ r.val) :
    View.canon (kernelRun_A.sl.H2_12 (F := Ideal) c arg2 harg2 arg3 harg3 arg4 x0 x1) (ix2 r l) = 0 := by
  unfold kernelRun_A.sl.H2_12
  exact (canon_skip_rows 80 _ _ _ r l (by omega)).trans (H2_zero_11 c arg2 harg2 arg3 harg3 arg4 x0 x1 r l (by omega))

/-- After the clearing store and the first 12 chunks, the rows from 96 on still read zero. -/
theorem H2_zero_13 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 96 ≤ r.val) :
    View.canon (kernelRun_A.sl.H2_13 (F := Ideal) c arg2 harg2 arg3 harg3 arg4 x0 x1) (ix2 r l) = 0 := by
  unfold kernelRun_A.sl.H2_13
  exact (canon_skip_rows 88 _ _ _ r l (by omega)).trans (H2_zero_12 c arg2 harg2 arg3 harg3 arg4 x0 x1 r l (by omega))

/-- After the clearing store and the first 13 chunks, the rows from 104 on still read zero. -/
theorem H2_zero_14 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 104 ≤ r.val) :
    View.canon (kernelRun_A.sl.H2_14 (F := Ideal) c arg2 harg2 arg3 harg3 arg4 x0 x1) (ix2 r l) = 0 := by
  unfold kernelRun_A.sl.H2_14
  exact (canon_skip_rows 96 _ _ _ r l (by omega)).trans (H2_zero_13 c arg2 harg2 arg3 harg3 arg4 x0 x1 r l (by omega))

/-- After the clearing store and the first 14 chunks, the rows from 112 on still read zero. -/
theorem H2_zero_15 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 112 ≤ r.val) :
    View.canon (kernelRun_A.sl.H2_15 (F := Ideal) c arg2 harg2 arg3 harg3 arg4 x0 x1) (ix2 r l) = 0 := by
  unfold kernelRun_A.sl.H2_15
  exact (canon_skip_rows 104 _ _ _ r l (by omega)).trans (H2_zero_14 c arg2 harg2 arg3 harg3 arg4 x0 x1 r l (by omega))

/-- After the clearing store and the first 15 chunks, the rows from 120 on still read zero. -/
theorem H2_zero_16 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) (r l : Fin 128) (h : 120 ≤ r.val) :
    View.canon (kernelRun_A.sl.H2_16 (F := Ideal) c arg2 harg2 arg3 harg3 arg4 x0 x1) (ix2 r l) = 0 := by
  unfold kernelRun_A.sl.H2_16
  exact (canon_skip_rows 112 _ _ _ r l (by omega)).trans (H2_zero_15 c arg2 harg2 arg3 harg3 arg4 x0 x1 r l (by omega))

/-- Chunk 0's previous contents, loaded after the clearing store and the chunks before it: zero. -/
theorem cur_zero_0 (c : Dev nD) (arg4 : Memref sig .tc .vmem S128x128 .f32) :
    kernelRun_A.sl.v234 (F := Ideal) c arg4 = fun _ => (0 : EReal) := by
  funext x
  obtain ⟨a, l, rfl⟩ : ∃ (a : Fin 8) (l : Fin 128), x = ix2 a l := ⟨x 0, x 1, eq_ix2 x⟩
  unfold kernelRun_A.sl.v234
  rw [View.readCov_eq_canon']
  dsimp only
  rw [idx_rows2]
  exact H2_zero_1 _ l

/-- Chunk 1's previous contents, loaded after the clearing store and the chunks before it: zero. -/
theorem cur_zero_1 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v469 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v469
  rw [View.readCov_eq_canon']
  dsimp only
  rw [idx_rows2]
  exact H2_zero_2 c arg2 harg2 arg3 harg3 arg4 x0 x1 _ l (Nat.le_add_right _ _)

/-- Chunk 2's previous contents, loaded after the clearing store and the chunks before it: zero. -/
theorem cur_zero_2 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v704 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v704
  rw [View.readCov_eq_canon']
  dsimp only
  rw [idx_rows2]
  exact H2_zero_3 c arg2 harg2 arg3 harg3 arg4 x0 x1 _ l (Nat.le_add_right _ _)

/-- Chunk 3's previous contents, loaded after the clearing store and the chunks before it: zero. -/
theorem cur_zero_3 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v939 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v939
  rw [View.readCov_eq_canon']
  dsimp only
  rw [idx_rows2]
  exact H2_zero_4 c arg2 harg2 arg3 harg3 arg4 x0 x1 _ l (Nat.le_add_right _ _)

/-- Chunk 4's previous contents, loaded after the clearing store and the chunks before it: zero. -/
theorem cur_zero_4 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v1174 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v1174
  rw [View.readCov_eq_canon']
  dsimp only
  rw [idx_rows2]
  exact H2_zero_5 c arg2 harg2 arg3 harg3 arg4 x0 x1 _ l (Nat.le_add_right _ _)

/-- Chunk 5's previous contents, loaded after the clearing store and the chunks before it: zero. -/
theorem cur_zero_5 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v1409 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v1409
  rw [View.readCov_eq_canon']
  dsimp only
  rw [idx_rows2]
  exact H2_zero_6 c arg2 harg2 arg3 harg3 arg4 x0 x1 _ l (Nat.le_add_right _ _)

/-- Chunk 6's previous contents, loaded after the clearing store and the chunks before it: zero. -/
theorem cur_zero_6 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v1644 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v1644
  rw [View.readCov_eq_canon']
  dsimp only
  rw [idx_rows2]
  exact H2_zero_7 c arg2 harg2 arg3 harg3 arg4 x0 x1 _ l (Nat.le_add_right _ _)

/-- Chunk 7's previous contents, loaded after the clearing store and the chunks before it: zero. -/
theorem cur_zero_7 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v1879 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v1879
  rw [View.readCov_eq_canon']
  dsimp only
  rw [idx_rows2]
  exact H2_zero_8 c arg2 harg2 arg3 harg3 arg4 x0 x1 _ l (Nat.le_add_right _ _)

/-- Chunk 8's previous contents, loaded after the clearing store and the chunks before it: zero. -/
theorem cur_zero_8 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v2114 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v2114
  rw [View.readCov_eq_canon']
  dsimp only
  rw [idx_rows2]
  exact H2_zero_9 c arg2 harg2 arg3 harg3 arg4 x0 x1 _ l (Nat.le_add_right _ _)

/-- Chunk 9's previous contents, loaded after the clearing store and the chunks before it: zero. -/
theorem cur_zero_9 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v2349 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v2349
  rw [View.readCov_eq_canon']
  dsimp only
  rw [idx_rows2]
  exact H2_zero_10 c arg2 harg2 arg3 harg3 arg4 x0 x1 _ l (Nat.le_add_right _ _)

/-- Chunk 10's previous contents, loaded after the clearing store and the chunks before it: zero. -/
theorem cur_zero_10 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v2584 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v2584
  rw [View.readCov_eq_canon']
  dsimp only
  rw [idx_rows2]
  exact H2_zero_11 c arg2 harg2 arg3 harg3 arg4 x0 x1 _ l (Nat.le_add_right _ _)

/-- Chunk 11's previous contents, loaded after the clearing store and the chunks before it: zero. -/
theorem cur_zero_11 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v2819 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v2819
  rw [View.readCov_eq_canon']
  dsimp only
  rw [idx_rows2]
  exact H2_zero_12 c arg2 harg2 arg3 harg3 arg4 x0 x1 _ l (Nat.le_add_right _ _)

/-- Chunk 12's previous contents, loaded after the clearing store and the chunks before it: zero. -/
theorem cur_zero_12 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v3054 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v3054
  rw [View.readCov_eq_canon']
  dsimp only
  rw [idx_rows2]
  exact H2_zero_13 c arg2 harg2 arg3 harg3 arg4 x0 x1 _ l (Nat.le_add_right _ _)

/-- Chunk 13's previous contents, loaded after the clearing store and the chunks before it: zero. -/
theorem cur_zero_13 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v3289 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v3289
  rw [View.readCov_eq_canon']
  dsimp only
  rw [idx_rows2]
  exact H2_zero_14 c arg2 harg2 arg3 harg3 arg4 x0 x1 _ l (Nat.le_add_right _ _)

/-- Chunk 14's previous contents, loaded after the clearing store and the chunks before it: zero. -/
theorem cur_zero_14 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v3524 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v3524
  rw [View.readCov_eq_canon']
  dsimp only
  rw [idx_rows2]
  exact H2_zero_15 c arg2 harg2 arg3 harg3 arg4 x0 x1 _ l (Nat.le_add_right _ _)

/-- Chunk 15's previous contents, loaded after the clearing store and the chunks before it: zero. -/
theorem cur_zero_15 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32)
    (x0 : Vec Ideal S128x16x128 .f32) (x1 : Vec Ideal S32x16x128 .f32) :
    kernelRun_A.sl.v3759 (F := Ideal) c arg2 harg2 arg3 harg3 arg4 x0 x1 = fun _ => (0 : EReal) := by
  funext x
  obtain ⟨a, l, rfl⟩ : ∃ (a : Fin 8) (l : Fin 128), x = ix2 a l := ⟨x 0, x 1, eq_ix2 x⟩
  unfold kernelRun_A.sl.v3759
  rw [View.readCov_eq_canon']
  dsimp only
  rw [idx_rows2]
  exact H2_zero_16 c arg2 harg2 arg3 harg3 arg4 x0 x1 _ l (Nat.le_add_right _ _)

/-- What the first case leaves in the output block, as one function of the block index. -/
def GA (x0 : Vec Ideal S128x16x128 .f32) (x1 : Vec Ideal S32x16x128 .f32) : S128x128.Idx → EReal :=
  fun y => contrib x0 x1 (y 0) (y 1)

theorem GA_apply (x0 : Vec Ideal S128x16x128 .f32) (x1 : Vec Ideal S32x16x128 .f32) (r l : Fin 128) :
    GA x0 x1 (ix2 r l) = contrib x0 x1 r l := rfl

set_option maxHeartbeats 4000000 in
/-- Each of the 16 chunk stores of the first case holds the key tile's contribution at its rows. -/
theorem pieces_A (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec Ideal S128x16x128 .f32) (x1 : Vec Ideal S32x16x128 .f32) :
    ∀ p ∈ ((kernelRun_A c i arg2 harg2 arg3 harg3 arg4 harg4 hc0 hc1 x0 x1).1).take 16, ∀ x : p.1.shape.Idx, p.2 x = GA x0 x1 (p.1.emb x) := by
  unfold kernelRun_A
  dsimp only
  unfold kernelRun_A.sl.H2_16 kernelRun_A.sl.H2_15 kernelRun_A.sl.H2_14 kernelRun_A.sl.H2_13 kernelRun_A.sl.H2_12 kernelRun_A.sl.H2_11 kernelRun_A.sl.H2_10 kernelRun_A.sl.H2_9 kernelRun_A.sl.H2_8 kernelRun_A.sl.H2_7 kernelRun_A.sl.H2_6 kernelRun_A.sl.H2_5 kernelRun_A.sl.H2_4 kernelRun_A.sl.H2_3 kernelRun_A.sl.H2_2 kernelRun_A.sl.H2_1
  unfold_run_values
  simp only [List.take_succ_cons, List.take_zero, cur_zero_0, cur_zero_1, cur_zero_2, cur_zero_3, cur_zero_4, cur_zero_5, cur_zero_6, cur_zero_7, cur_zero_8, cur_zero_9, cur_zero_10, cur_zero_11, cur_zero_12, cur_zero_13, cur_zero_14, cur_zero_15]
  repeat' (first | exact fun _ h => absurd h List.not_mem_nil | refine List.forall_mem_cons.mpr ⟨?_, ?_⟩)
  all_goals (
    intro x
    obtain ⟨a, l, rfl⟩ : ∃ (a : Fin 8) (l : Fin 128), x = ix2 a l := ⟨x 0, x 1, eq_ix2 x⟩
    dsimp only
    chunk_read
    refine (zero_add _).trans ?_
    rw [GA_apply, contrib_nf])

/-- The 16 chunk stores cover the block. -/
theorem cover_A16 (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec Ideal S128x16x128 .f32) (x1 : Vec Ideal S32x16x128 .f32) (y : S128x128.Idx) :
    ∃ pc ∈ ((kernelRun_A c i arg2 harg2 arg3 harg3 arg4 harg4 hc0 hc1 x0 x1).1).take 16, y ∈ pc.1.set :=
  View.cover_of_tiledL (((kernelRun_A c i arg2 harg2 arg3 harg3 arg4 harg4 hc0 hc1 x0 x1).1).take 16) S8x128.size (by sl_kernel_rfl) y

/-! ## The last case: the 16 chunk stores as in the middle case, then the whole block rewritten as itself minus `1.0` -/

/-- The whole block's rectangle places an index at itself. -/
theorem idx_whole2 (inb : ∀ a, (![0, 0] : Fin 2 → ℕ) a + (![128, 128] : Fin 2 → ℕ) a ≤ S128x128.size a) (r l : Fin 128) :
    (Rect.unit (s := S128x128) ![0, 0] ![128, 128] inb).toLoadRect.idx (ix2 r l) = ix2 r l := by
  refine funext fun q => Fin.ext ?_
  match q with
  | ⟨0, _⟩ => show 0 + 1 * r.val = r.val; omega
  | ⟨1, _⟩ => show 0 + 1 * l.val = l.val; omega

set_option maxHeartbeats 4000000 in
/-- Each of the 16 chunk stores of the last case holds the previous contents plus the key tile's contribution at its rows. -/
theorem pieces_C16 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (x0 : Vec Ideal S128x16x128 .f32) (x1 : Vec Ideal S32x16x128 .f32) (xo : Vec Ideal S128x128 .f32) :
    ∀ p ∈ kernelRun_C.sl.H2_16 (F := Ideal) c arg2 harg2 arg3 harg3 arg4 harg4 x0 x1 xo, ∀ x : p.1.shape.Idx, p.2 x = GB x0 x1 xo (p.1.emb x) := by
  sl_unfold_run_names
  repeat' (first | exact fun _ h => absurd h List.not_mem_nil | refine List.forall_mem_cons.mpr ⟨?_, ?_⟩)
  all_goals (
    intro x
    obtain ⟨a, l, rfl⟩ : ∃ (a : Fin 8) (l : Fin 128), x = ix2 a l := ⟨x 0, x 1, eq_ix2 x⟩
    dsimp only
    chunk_read
    rw [GB_apply, contrib_nf])

/-- The 16 chunk stores cover the block. -/
theorem cover_C16 (c : Dev nD) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (x0 : Vec Ideal S128x16x128 .f32) (x1 : Vec Ideal S32x16x128 .f32) (xo : Vec Ideal S128x128 .f32) (y : S128x128.Idx) :
    ∃ pc ∈ kernelRun_C.sl.H2_16 (F := Ideal) c arg2 harg2 arg3 harg3 arg4 harg4 x0 x1 xo, y ∈ pc.1.set :=
  View.cover_of_tiledL (kernelRun_C.sl.H2_16 (F := Ideal) c arg2 harg2 arg3 harg3 arg4 harg4 x0 x1 xo) S8x128.size (by sl_kernel_rfl) y

end Pay

open Pay
/-- The first case leaves, at row `r` and lane `l`, the key tile's contribution alone. -/
theorem out_A_apply (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : cond0 i) (hc1 : ¬cond1 i) (x0 : Vec Ideal S128x16x128 .f32) (x1 : Vec Ideal S32x16x128 .f32) (r l : Fin 128) :
    R1.out_A (F := Ideal) c i arg2 harg2 arg3 harg3 arg4 harg4 hc0 hc1 x0 x1 (ix2 r l) = contrib x0 x1 r l := by
  unfold R1.out_A
  rw [View.read_writes_eq_canon _ _ _ (cover_A c i arg2 harg2 arg3 harg3 arg4 harg4 hc0 hc1 x0 x1),
    ← List.take_append_drop 16 (kernelRun_A c i arg2 harg2 arg3 harg3 arg4 harg4 hc0 hc1 x0 x1).1]
  exact canon_append_of_pieces (GA x0 x1) _ _ (pieces_A c i arg2 harg2 arg3 harg3 arg4 harg4 hc0 hc1 x0 x1) (ix2 r l)
    (cover_A16 c i arg2 harg2 arg3 harg3 arg4 harg4 hc0 hc1 x0 x1 (ix2 r l))

/-- The middle case leaves, at row `r` and lane `l`, the previous contents plus the key tile's contribution. -/
theorem out_B_apply (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : ¬cond1 i) (x0 : Vec Ideal S128x16x128 .f32) (x1 : Vec Ideal S32x16x128 .f32) (xo : Vec Ideal S128x128 .f32) (r l : Fin 128) :
    R1.out_B (F := Ideal) c i arg2 harg2 arg3 harg3 arg4 harg4 hc0 hc1 x0 x1 xo (ix2 r l) = xo (ix2 r l) + contrib x0 x1 r l := by
  unfold R1.out_B
  rw [View.read_writes_eq_canon _ _ _ (cover_B c i arg2 harg2 arg3 harg3 arg4 harg4 hc0 hc1 x0 x1 xo)]
  exact View.canon_apply_of_pieces (GB x0 x1 xo) _ (pieces_B c i arg2 harg2 arg3 harg3 arg4 harg4 hc0 hc1 x0 x1 xo) (ix2 r l)
    (cover_B c i arg2 harg2 arg3 harg3 arg4 harg4 hc0 hc1 x0 x1 xo (ix2 r l))

/-- The last case leaves, at row `r` and lane `l`, the previous contents plus the key tile's contribution, minus `1.0`. -/
theorem out_C_apply (c : Dev nD) (i : grid1.Coords) (arg2 : Memref sig .tc .vmem S128x16x128 .f32) (harg2 : arg2.IsWhole)
    (arg3 : Memref sig .tc .vmem S32x16x128 .f32) (harg3 : arg3.IsWhole) (arg4 : Memref sig .tc .vmem S128x128 .f32) (harg4 : arg4.IsWhole)
    (hc0 : ¬cond0 i) (hc1 : cond1 i) (x0 : Vec Ideal S128x16x128 .f32) (x1 : Vec Ideal S32x16x128 .f32) (xo : Vec Ideal S128x128 .f32) (r l : Fin 128) :
    R1.out_C (F := Ideal) c i arg2 harg2 arg3 harg3 arg4 harg4 hc0 hc1 x0 x1 xo (ix2 r l) = (xo (ix2 r l) + contrib x0 x1 r l) - Cert.Spec.one := by
  unfold R1.out_C
  rw [View.read_writes_eq_canon _ _ _ (cover_C c i arg2 harg2 arg3 harg3 arg4 harg4 hc0 hc1 x0 x1 xo)]
  unfold kernelRun_C
  dsimp only
  rw [View.canon_cons_unit_zero zeros2]
  simp only [k1_pay2, subf_apply, broadcast_apply, shapeCast_self, Ideal.ofBits_def]
  unfold kernelRun_C.sl.v3766
  rw [View.readCov_eq_canon']
  dsimp only
  rw [idx_whole2, View.canon_apply_of_pieces (GB x0 x1 xo) _ (pieces_C16 c arg2 harg2 arg3 harg3 arg4 harg4 x0 x1 xo) (ix2 r l) (cover_C16 c arg2 harg2 arg3 harg3 arg4 harg4 x0 x1 xo (ix2 r l)), GB_apply]

end Cert.KernelIdeal.R1V

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.R1Value.lean ====
import proofs.«175280_j70806830842566_2_alg».proof.Proof.R1Pay
import proofs.«175280_j70806830842566_2_alg».proof.Proof.LibTileSum
import Idealize.ShloMosaic.Lib.Pipeline.Value
import Idealize.ShloMosaic.Lib.ValueIdx

/-! # The pairwise region: the value of its output array

After the pairwise region the feature array holds, at row `R` and feature `l`, the sum over ALL 256 rows `K` of
`exp (− Σ_d |A[R,d,l] − A[K,d,l]|)` minus `1.0`, for `A` the transposed projection as the region finds it. The output
block of row tile `i` is cleared at key tile 0, gains key tile `j`'s 32 terms at point `8 i + j`, loses `1.0` at key tile 7
and is written back there; the 8 tiles of 32 rows are the 256 rows. -/

set_option maxRecDepth 16384

noncomputable section

open scoped BigOperators

namespace Cert.KernelIdeal.R1V

open Cert.KernelIdeal Cert.KernelIdeal.Gen Cert.KernelIdeal.R1
open Idealize.ShloMosaic Idealize.ShloMosaic.TcCoe Idealize.SL.Sem
open Idealize.ShloMosaic.Pipeline (Dat)
open Idealize.ShloMosaic.ValueIdx
open Cert.Lib.TileSum

variable (V : (c : Dev nD) → (b : Ref sig .tc) → Buf (Elt Ideal) ((c : Thread nD τ).loc b))

namespace Arr

/-! ## One pair's term, one key tile's share -/

/-- Rows `R` and `K` of `A` in feature `l`: `exp` of minus their L1 distance over the 16 kernel dimensions. -/
def pairTerm (A : S256x16x128.Idx → EReal) (R : Fin 256) (l : Fin 128) (K : Fin 256) : EReal :=
  Ideal.exp (-(∑ d : Fin 16, max (A (ix3 R d l) - A (ix3 K d l)) (-(A (ix3 R d l) - A (ix3 K d l)))))

/-- Key tile `J`'s share of row `R`'s feature `l`: the sum over the tile's 32 rows `32 J + b` (zero past the 8 tiles). -/
def tileTerm (A : S256x16x128.Idx → EReal) (R : Fin 256) (l : Fin 128) (J : ℕ) : EReal :=
  if hJ : J < 8 then ∑ b : Fin 32, pairTerm A R l ⟨32 * J + b.val, by have := b.isLt; omega⟩ else 0

/-- The feature array at explicit coordinates. -/
theorem featA_ix2 (A : S256x16x128.Idx → EReal) (R : Fin 256) (l : Fin 128) :
    featA A (ix2 R l) = (∑ K : Fin 256, pairTerm A R l K) - Cert.Spec.one := rfl

/-- The 8 key tiles' shares are the sum over all 256 rows. -/
theorem sum_tiles (A : S256x16x128.Idx → EReal) (R : Fin 256) (l : Fin 128) :
    ∑ s ∈ Finset.range 8, tileTerm A R l s = ∑ K : Fin 256, pairTerm A R l K := by
  rw [Finset.sum_range]
  refine Eq.trans ?_ (sum_fin_tiles 8 32 (fun K : Fin (8 * 32) => pairTerm A R l K)).symm
  refine Finset.sum_congr rfl fun J _ => ?_
  unfold tileTerm
  rw [dif_pos J.isLt]

/-! ## The blocks at an index -/

/-- The printed index maps, decided over the 16 points: at point `t = 8 i + j` the row tile's block index is `i`, the key
    tile's is `j`, the output block's is `i`; every other axis stays at 0. -/
theorem idx_facts : ∀ t : Fin cfg1.N,
    win1_0.index t (0 : Fin 3) = t.val / 8 ∧ win1_0.index t (1 : Fin 3) = 0 ∧ win1_0.index t (2 : Fin 3) = 0
    ∧ win1_1.index t (0 : Fin 3) = t.val % 8 ∧ win1_1.index t (1 : Fin 3) = 0 ∧ win1_1.index t (2 : Fin 3) = 0
    ∧ win1_2.index t (0 : Fin 2) = t.val / 8 ∧ win1_2.index t (1 : Fin 2) = 0 :=
  (by decide +kernel : ∀ t : Fin grid1.N, _)

/-- The row tile's block at point `t`: rows `128 (t / 8) + r` of the array. -/
theorem iblk0_apply (c : Dev nD) (t : Fin cfg1.N) (r : Fin 128) (d : Fin 16) (l : Fin 128) (R : Fin 256)
    (hR : R.val = 128 * (t.val / 8) + r.val) :
    R1.iblk (F := Ideal) V c 0 t (ix3 r d l) = V c main_v3 (ix3 R d l) := by
  obtain ⟨e0, e1, e2, -⟩ := idx_facts t
  show V c main_v3 (((cfg1.win 0).blk t).view.emb (ix3 r d l)) = V c main_v3 (ix3 R d l)
  refine congrArg (V c main_v3) ?_
  funext a; apply Fin.ext
  match a with
  | ⟨0, _⟩ => show win1_0.index t (0 : Fin 3) * 128 + 1 * r.val = R.val; omega
  | ⟨1, _⟩ => show win1_0.index t (1 : Fin 3) * 16 + 1 * d.val = d.val; omega
  | ⟨2, _⟩ => show win1_0.index t (2 : Fin 3) * 128 + 1 * l.val = l.val; omega

/-- The key tile's block at point `t`: rows `32 (t % 8) + b` of the array. -/
theorem iblk1_apply (c : Dev nD) (t : Fin cfg1.N) (b : Fin 32) (d : Fin 16) (l : Fin 128) (K : Fin 256)
    (hK : K.val = 32 * (t.val % 8) + b.val) :
    R1.iblk (F := Ideal) V c 1 t (ix3 b d l) = V c main_v3 (ix3 K d l) := by
  obtain ⟨-, -, -, e0, e1, e2, -⟩ := idx_facts t
  show V c main_v3 (((cfg1.win 1).blk t).view.emb (ix3 b d l)) = V c main_v3 (ix3 K d l)
  refine congrArg (V c main_v3) ?_
  funext a; apply Fin.ext
  match a with
  | ⟨0, _⟩ => show win1_1.index t (0 : Fin 3) * 32 + 1 * b.val = K.val; omega
  | ⟨1, _⟩ => show win1_1.index t (1 : Fin 3) * 16 + 1 * d.val = d.val; omega
  | ⟨2, _⟩ => show win1_1.index t (2 : Fin 3) * 128 + 1 * l.val = l.val; omega

/-- What point `t = 8 i + j` adds to row `r` of its row tile is key tile `j`'s share of row `128 i + r`. -/
theorem contrib_at (c : Dev nD) (t : Fin cfg1.N) (i j : ℕ) (hi : t.val / 8 = i) (hj : t.val % 8 = j) (r l : Fin 128)
    (R : Fin 256) (hR : R.val = 128 * i + r.val) :
    contrib (R1.iblk (F := Ideal) V c 0 t) (R1.iblk (F := Ideal) V c 1 t) r l = tileTerm (V c main_v3) R l j := by
  have hj8 : j < 8 := by omega
  unfold contrib tileTerm pairTerm
  rw [dif_pos hj8]
  refine Finset.sum_congr rfl fun b _ => ?_
  have hb := b.isLt
  refine congrArg (fun x => Ideal.exp (-x)) ?_
  refine Finset.sum_congr rfl fun d _ => ?_
  rw [iblk0_apply V c t r d l R (by omega), iblk1_apply V c t b d l ⟨32 * j + b.val, by omega⟩ (by show 32 * j + b.val = _; omega)]

/-! ## The accumulation over the key tiles -/

/-- The output block's contents after a point do not depend on how the point's number is written. -/
theorem outsAt_same (c : Dev nD) (u n : ℕ) (hu : u < cfg1.N) (hn : n < cfg1.N) (e : u = n) :
    R1.outsAt (F := Ideal) V c u hu = R1.outsAt (F := Ideal) V c n hn := by subst e; rfl

/-- At the first key tile the block holds that tile's contribution. -/
theorem outs_A (c : Dev nD) (t : Fin cfg1.N) (h0 : t.val % 8 = 0) (r l : Fin 128) :
    R1.outsAt (F := Ideal) V c t.val t.isLt (ix2 r l)
      = contrib (R1.iblk (F := Ideal) V c 0 t) (R1.iblk (F := Ideal) V c 1 t) r l := by
  rw [R1.outsAt_A V c t h0]
  exact out_A_apply c (grid1.coords t) (ms0 t) (hs0 t) (ms1 t) (hs1 t) (ms2 t) (hs2 t) _ _ (R1.iblk V c 0 t) (R1.iblk V c 1 t) r l

/-- At a middle key tile it gains that tile's contribution. -/
theorem outs_B (c : Dev nD) (t : Fin cfg1.N) (h0 : ¬t.val % 8 = 0) (h1 : ¬t.val % 8 = 7) (r l : Fin 128) :
    R1.outsAt (F := Ideal) V c t.val t.isLt (ix2 r l)
      = R1.outsAt (F := Ideal) V c (t.val - 1) (Nat.lt_of_le_of_lt (Nat.sub_le _ _) t.isLt) (ix2 r l)
        + contrib (R1.iblk (F := Ideal) V c 0 t) (R1.iblk (F := Ideal) V c 1 t) r l := by
  rw [R1.outsAt_B V c t h0 h1]
  exact out_B_apply c (grid1.coords t) (ms0 t) (hs0 t) (ms1 t) (hs1 t) (ms2 t) (hs2 t) _ _ (R1.iblk V c 0 t) (R1.iblk V c 1 t)
    (R1.outsAt V c (t.val - 1) (Nat.lt_of_le_of_lt (Nat.sub_le _ _) t.isLt)) r l

/-- At the last key tile it gains that tile's contribution and loses `1.0`. -/
theorem outs_C (c : Dev nD) (t : Fin cfg1.N) (h0 : ¬t.val % 8 = 0) (h1 : t.val % 8 = 7) (r l : Fin 128) :
    R1.outsAt (F := Ideal) V c t.val t.isLt (ix2 r l)
      = (R1.outsAt (F := Ideal) V c (t.val - 1) (Nat.lt_of_le_of_lt (Nat.sub_le _ _) t.isLt) (ix2 r l)
        + contrib (R1.iblk (F := Ideal) V c 0 t) (R1.iblk (F := Ideal) V c 1 t) r l) - Cert.Spec.one := by
  rw [R1.outsAt_C V c t h0 h1]
  exact out_C_apply c (grid1.coords t) (ms0 t) (hs0 t) (ms1 t) (hs1 t) (ms2 t) (hs2 t) _ _ (R1.iblk V c 0 t) (R1.iblk V c 1 t)
    (R1.outsAt V c (t.val - 1) (Nat.lt_of_le_of_lt (Nat.sub_le _ _) t.isLt)) r l

/-- After key tile `j ≤ 6` of row tile `i` the block holds, at row `r`, the shares of key tiles `0 … j` of row `128 i + r`:
    by induction on the key tile. -/
theorem acc_le6 (c : Dev nD) (i : ℕ) (r l : Fin 128) (R : Fin 256) (hR : R.val = 128 * i + r.val) :
    ∀ (j : ℕ) (hj : j ≤ 6) (h : 8 * i + j < cfg1.N),
      R1.outsAt (F := Ideal) V c (8 * i + j) h (ix2 r l) = ∑ s ∈ Finset.range (j + 1), tileTerm (V c main_v3) R l s
  | 0, _, h => by
    refine (outs_A V c ⟨8 * i + 0, h⟩ (by show (8 * i + 0) % 8 = 0; omega) r l).trans ?_
    rw [contrib_at V c ⟨8 * i + 0, h⟩ i 0 (by show (8 * i + 0) / 8 = i; omega) (by show (8 * i + 0) % 8 = 0; omega) r l R hR,
      Finset.sum_range_one]
  | j + 1, hj, h => by
    refine (outs_B V c ⟨8 * i + (j + 1), h⟩ (by show ¬(8 * i + (j + 1)) % 8 = 0; omega) (by show ¬(8 * i + (j + 1)) % 8 = 7; omega) r l).trans ?_
    rw [contrib_at V c ⟨8 * i + (j + 1), h⟩ i (j + 1) (by show (8 * i + (j + 1)) / 8 = i; omega)
        (by show (8 * i + (j + 1)) % 8 = j + 1; omega) r l R hR,
      Finset.sum_range_succ _ (j + 1)]
    refine congrArg (· + tileTerm (V c main_v3) R l (j + 1)) ?_
    have hN : cfg1.N = 16 := N_1
    rw [outsAt_same V c _ (8 * i + j) _ (by omega) (by show 8 * i + (j + 1) - 1 = 8 * i + j; omega)]
    exact acc_le6 c i r l R hR j (by omega) _

/-- After the last key tile: all 8 shares, minus `1.0`. -/
theorem acc_7 (c : Dev nD) (i : ℕ) (r l : Fin 128) (R : Fin 256) (hR : R.val = 128 * i + r.val) (h : 8 * i + 7 < cfg1.N) :
    R1.outsAt (F := Ideal) V c (8 * i + 7) h (ix2 r l)
      = (∑ s ∈ Finset.range 8, tileTerm (V c main_v3) R l s) - Cert.Spec.one := by
  refine (outs_C V c ⟨8 * i + 7, h⟩ (by show ¬(8 * i + 7) % 8 = 0; omega) (by show (8 * i + 7) % 8 = 7; omega) r l).trans ?_
  rw [contrib_at V c ⟨8 * i + 7, h⟩ i 7 (by show (8 * i + 7) / 8 = i; omega) (by show (8 * i + 7) % 8 = 7; omega) r l R hR,
    Finset.sum_range_succ _ 7]
  refine congrArg (fun x => (x + tileTerm (V c main_v3) R l 7) - Cert.Spec.one) ?_
  have hN : cfg1.N = 16 := N_1
  rw [outsAt_same V c _ (8 * i + 6) _ (by omega) (by show 8 * i + 7 - 1 = 8 * i + 6; omega)]
  exact acc_le6 V c i r l R hR 6 (by omega) _

/-! ## From the blocks to the array -/

/-- What a point that writes the output block back writes is its block of the feature array. -/
theorem flushed_eq (c : Dev nD) (t : Fin cfg1.N) (hf : (cfg1.win 2).flush t = true) :
    (R1.dat1 (F := Ideal) V c).flushed 2 t = ((cfg1.win 2).blk t).view.read (Elt Ideal) (featA (V c main_v3)) := by
  have h7 : t.val % 8 = 7 := (flush1_2 t).mp hf
  have hN : cfg1.N = 16 := N_1
  have ht : t.val < cfg1.N := t.isLt
  show (cfg1.win 2).cut (grid1.coords t) ((R1.dat1 (F := Ideal) V c).after 2 t) = _
  rw [R1.after1_2]
  obtain ⟨-, -, -, -, -, -, e20, e21⟩ := idx_facts t
  funext j
  obtain ⟨r, l, rfl⟩ : ∃ (r l : Fin 128), j = ix2 r l := ⟨j 0, j 1, eq_ix2 j⟩
  show R1.outsAt (F := Ideal) V c t.val t.isLt ((cfg1.win 2).xinj (grid1.coords t) (ix2 r l))
    = featA (V c main_v3) (((cfg1.win 2).blk t).view.emb (ix2 r l))
  have hx : (cfg1.win 2).xinj (grid1.coords t) (ix2 r l) = ix2 r l := funext fun a => Fin.ext rfl
  have hr := r.isLt
  have hemb : ((cfg1.win 2).blk t).view.emb (ix2 r l) = ix2 (⟨128 * (t.val / 8) + r.val, by omega⟩ : Fin 256) l := by
    funext a; apply Fin.ext
    match a with
    | ⟨0, _⟩ => show win1_2.index t (0 : Fin 2) * 128 + 1 * r.val = 128 * (t.val / 8) + r.val; omega
    | ⟨1, _⟩ => show win1_2.index t (1 : Fin 2) * 128 + 1 * l.val = l.val; omega
  rw [hx, hemb, featA_ix2, ← sum_tiles,
    outsAt_same V c t.val (8 * (t.val / 8) + 7) t.isLt (by omega) (by omega)]
  exact acc_7 V c (t.val / 8) r l _ rfl _

/-- An index of the output array is in point `t`'s block iff each coordinate is in the block's range on its axis. -/
theorem mem_blk (t : Fin cfg1.N) (i : S256x128.Idx) :
    i ∈ ((cfg1.win 2).blk t).view.set ↔ ∀ a : Fin 2, win1_2.index t a * S128x128.size a ≤ (i a).val ∧ (i a).val < win1_2.index t a * S128x128.size a + S128x128.size a := by
  show i ∈ ((View.whole main_v4).slice (win1_2.rect t)).set ↔ _
  rw [View.set_slice_whole, Rect.mem_set_unit]
  exact Iff.rfl

/-- The two row tiles' blocks cover the output array: row `R` is in the block written back at point `8 (R / 128) + 7`. -/
theorem cover (i : S256x128.Idx) : ∃ t : Fin cfg1.N, (cfg1.win 2).flush t = true ∧ i ∈ ((cfg1.win 2).blk t).view.set := by
  have hi0 : (i 0).val < 256 := (i 0).isLt
  have hi1 : (i 1).val < 128 := (i 1).isLt
  have hN : cfg1.N = 16 := N_1
  have hlt : 8 * ((i 0).val / 128) + 7 < cfg1.N := by omega
  obtain ⟨-, -, -, -, -, -, e20, e21⟩ := idx_facts ⟨8 * ((i 0).val / 128) + 7, hlt⟩
  have e20' : win1_2.index ⟨8 * ((i 0).val / 128) + 7, hlt⟩ (0 : Fin 2) = (8 * ((i 0).val / 128) + 7) / 8 := e20
  refine ⟨⟨8 * ((i 0).val / 128) + 7, hlt⟩, (flush1_2 _).mpr (by show (8 * ((i 0).val / 128) + 7) % 8 = 7; omega), ?_⟩
  rw [mem_blk]
  intro a
  match a with
  | ⟨0, _⟩ =>
    show win1_2.index ⟨8 * ((i 0).val / 128) + 7, hlt⟩ (0 : Fin 2) * 128 ≤ (i 0).val
      ∧ (i 0).val < win1_2.index ⟨8 * ((i 0).val / 128) + 7, hlt⟩ (0 : Fin 2) * 128 + 128
    omega
  | ⟨1, _⟩ =>
    show win1_2.index ⟨8 * ((i 0).val / 128) + 7, hlt⟩ (1 : Fin 2) * 128 ≤ (i 1).val
      ∧ (i 1).val < win1_2.index ⟨8 * ((i 0).val / 128) + 7, hlt⟩ (1 : Fin 2) * 128 + 128
    omega

end Arr

/-- THE FEATURE ARRAY AFTER THE REGION: at every row and feature, the sum over all 256 rows of `exp` of minus the L1
    distance, minus `1.0`, of the transposed projection as the region finds it. -/
theorem arr1_final (c : Dev nD) : (R1.dat1 (F := Ideal) V c).arrAt 2 cfg1.N = featA (V c main_v3) :=
  (R1.dat1 (F := Ideal) V c).arrAt_eq_of_cover 2 (featA (V c main_v3)) (fun t hf => Arr.flushed_eq V c t hf) Arr.cover

/-- The input windows' array is never written: it ends as the region found it. -/
theorem arr1_in0 (c : Dev nD) : (R1.dat1 (F := Ideal) V c).arrAt 0 cfg1.N = V c main_v3 :=
  ((R1.dat1 (F := Ideal) V c).arrAt_in 0 rfl _).trans (R1.A_eq1 V c 0)
theorem arr1_in1 (c : Dev nD) : (R1.dat1 (F := Ideal) V c).arrAt 1 cfg1.N = V c main_v3 :=
  ((R1.dat1 (F := Ideal) V c).arrAt_in 1 rfl _).trans (R1.A_eq1 V c 1)

end Cert.KernelIdeal.R1V

end
-- ==== Proof.Final.lean ====
import proofs.«175280_j70806830842566_2_alg».proof.Proof.HostReads
import proofs.«175280_j70806830842566_2_alg».proof.Proof.R1Value

/-! # The idealized kernel program's result

After region 1 the last host operation concatenates the batch (unchanged since the launch) and the features' array.
That array holds the features of the transposed projection (the pairwise region's value), which are the
specification's features of the launch arrays. So the program ends with `concatenate (x, feat x T)`. -/

set_option maxRecDepth 16384

noncomputable section

namespace Cert.KernelIdeal.Final

open Cert.KernelIdeal Cert.KernelIdeal.Gen Cert.KernelIdeal.Asm Cert.KernelIdeal.Bridge
open Idealize.ShloMosaic Idealize.ShloMosaic.TcCoe Idealize.ShloMosaic.ValueIdx Idealize.SL.Sem

variable (m : (ℓ : Loc nD τ sig) → Buf (Elt Ideal) ℓ) (ρ : Dev nD → PrngReg)

/-- Region 1 finds, and leaves, the batch as launched. -/
theorem V4_arg0 (c : Dev nD) : V4 m (outs m) c main_arg0 = X m c :=
  (V4_keep m c main_arg0 (by decide)).trans <| (V3_of m (outsA m) c main_arg0 (by decide)).trans <|
    (V2_of m (outsA m) c main_arg0 (by decide)).trans <| V1_of m c main_arg0 (by decide)

/-- The features' array after region 1: the specification's features of the launch arrays. -/
theorem V4_feat (c : Dev nD) : (V4 m (outs m) c main_v4 : S256x128.Idx → EReal) = Cert.Spec.feat (X m c) (T m c) := by
  rw [V4_v4]
  show (R1.dat1 (F := Ideal) (VB m) c).arrAt 2 cfg1.N = _
  rw [R1V.arr1_final (VB m) c]
  exact featA_eq m c

/-- The result array at the end: the batch and its features side by side. -/
theorem V5_result (c : Dev nD) : (V5 m (outs m) c main_v5 : S256x1152.Idx → EReal)
    = concatenate S256x1152 1 [⟨S256x1024, X m c⟩, ⟨S256x128, Cert.Spec.feat (X m c) (T m c)⟩] concatenates_S256x1024_S256x128_S256x1152_d1 := by
  show StableHlo.after hostOps2 (V4 m (outs m) c) (Proc.devRef .tc main_v5) = _
  after_results
  show concatenate S256x1152 1 [⟨S256x1024, V4 m (outs m) c main_arg0⟩, ⟨S256x128, V4 m (outs m) c main_v4⟩] _ = _
  rw [V4_arg0, V4_feat]

/-- The idealized kernel program runs, ends with its result at `concatenate (x, feat x T)` and its arguments unchanged. -/
theorem kernel_result : θ_run defs (onTc (τ := τ) (main (F := Ideal))) ⟨m, fun _ => 0, ρ⟩ (fun r => ∀ c : Dev nD,
      r.2.mem ((c.tc : Thread nD τ).loc main_v5)
        = concatenate S256x1152 1 [⟨S256x1024, X m c⟩, ⟨S256x128, Cert.Spec.feat (X m c) (T m c)⟩] concatenates_S256x1024_S256x128_S256x1152_d1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v5 (by decide))).trans (V5_result m c),
      (h c _ (mem_uc main_arg0 (by decide))).trans (V5_main_arg0 m (outs m) c),
      (h c _ (mem_uc main_arg1 (by decide))).trans (V5_main_arg1 m (outs m) c)⟩) (run_all m ρ)

end Cert.KernelIdeal.Final

end
-- ==== Proof.RefFeat.lean ====
import proofs.«175280_j70806830842566_2_alg».proof.Proof.Spec
import proofs.«175280_j70806830842566_2_alg».proof.Proof.Gen.ReferenceIdeal.Read

/-! # The reference program computes the minibatch-discrimination features

The reference reshapes the tensor to a matrix, multiplies, reshapes the product back to `[256, 128, 16]`, broadcasts it
along two different axes of a `[256, 256, 128, 16]` array, and reduces: first the absolute differences over the last
axis (the L1 distance of two rows' projections), then `exp` of the negated distances over the FIRST axis, and subtracts
`1.0`. Read at an index, entry `(b, o)` of that result is the specification's `feat x T (b, o)`: the reshapes are the
arithmetic `n = 16·o + d` on the column index, and the two zero initial values of the sums vanish. -/

noncomputable section

open scoped BigOperators

namespace Cert.RefFeat

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- Row `b`, column `16·o + d` of the product, read back through the second reshape, takes row `b` of the batch. -/
theorem lidx_eq (b : Fin 256) (o : Fin 128) (d : Fin 16) (k : Fin 1024) :
    lidx_main_v1 (idx_main_v2 (ix3 b o d)) k = ix2 b k :=
  funext fun e => Fin.ext (by
    have hb := b.isLt; have ho := o.isLt; have hd := d.isLt
    match e with
    | ⟨0, _⟩ => show ((b.val * 128 + o.val) * 16 + d.val) / 2048 = b.val; omega
    | ⟨1, _⟩ => rfl)

/-- … and entry `(k, o, d)` of the tensor: row `k`, column `16·o + d` of the reshaped matrix. -/
theorem ridx_eq (b : Fin 256) (o : Fin 128) (d : Fin 16) (k : Fin 1024) :
    idx_main_v0 (ridx_main_v1 (idx_main_v2 (ix3 b o d)) k) = ix3 k o d :=
  funext fun e => Fin.ext (by
    have hb := b.isLt; have ho := o.isLt; have hd := d.isLt; have hk := k.isLt
    match e with
    | ⟨0, _⟩ => show (k.val * 2048 + ((b.val * 128 + o.val) * 16 + d.val) % 2048) / 2048 = k.val; omega
    | ⟨1, _⟩ => show (k.val * 2048 + ((b.val * 128 + o.val) * 16 + d.val) % 2048) / 16 % 128 = o.val; omega
    | ⟨2, _⟩ => show (k.val * 2048 + ((b.val * 128 + o.val) * 16 + d.val) % 2048) % 16 = d.val; omega)

/-- The reshaped product at `(b, o, d)` is the projection of row `b`. -/
theorem v2_at (x0 : (⟨S256x1024, .f32⟩ : BufTy).Contents (Elt Ideal)) (x1 : (⟨S1024x128x16, .f32⟩ : BufTy).Contents (Elt Ideal))
    (b : Fin 256) (o : Fin 128) (d : Fin 16) :
    val_main_v2 (F := Ideal) x0 x1 (ix3 b o d) = Cert.Spec.proj x0 x1 b o d := by
  rw [val_main_v2_apply, val_main_v1_apply]
  unfold Cert.Spec.proj
  refine Finset.sum_congr rfl fun k _ => ?_
  rw [val_main_v0_apply, lidx_eq, ridx_eq]

/-- Entry `(a, b, o, d)` of the first broadcast array is the product at `(b, o, d)`. -/
theorem idx5_eq (a b : Fin 256) (o : Fin 128) (d : Fin 16) :
    idx_main_v3 (idx_main_v5 (ix4 a b o d)) = ix3 b o d :=
  funext fun e => Fin.ext (by match e with | ⟨0, _⟩ => rfl | ⟨1, _⟩ => rfl | ⟨2, _⟩ => rfl)

/-- Entry `(a, b, o, d)` of the second broadcast array is the product at `(a, o, d)`. -/
theorem idx6_eq (a b : Fin 256) (o : Fin 128) (d : Fin 16) :
    idx_main_v4 (idx_main_v6 (ix4 a b o d)) = ix3 a o d :=
  funext fun e => Fin.ext (by match e with | ⟨0, _⟩ => rfl | ⟨1, _⟩ => rfl | ⟨2, _⟩ => rfl)

/-- The first sum, at `(a, b, o)`, runs over the entries `(a, b, o, d)`. -/
theorem idx9_eq (a b : Fin 256) (o : Fin 128) (d : Fin 16) :
    idx_main_v9 (ix3 a b o) d = ix4 a b o d :=
  funext fun e => Fin.ext (by match e with | ⟨0, _⟩ => rfl | ⟨1, _⟩ => rfl | ⟨2, _⟩ => rfl | ⟨3, _⟩ => rfl)

/-- The second sum, at `(b, o)`, runs over the entries `(a, b, o)`. -/
theorem idx12_eq (a b : Fin 256) (o : Fin 128) :
    idx_main_v12 (ix2 b o) a = ix3 a b o :=
  funext fun e => Fin.ext (by match e with | ⟨0, _⟩ => rfl | ⟨1, _⟩ => rfl | ⟨2, _⟩ => rfl)

/-- The first sum at `(a, b, o)` is the L1 distance between the projections of rows `b` and `a` in feature `o`. -/
theorem v9_at (x0 : (⟨S256x1024, .f32⟩ : BufTy).Contents (Elt Ideal)) (x1 : (⟨S1024x128x16, .f32⟩ : BufTy).Contents (Elt Ideal))
    (a b : Fin 256) (o : Fin 128) :
    val_main_v9 (F := Ideal) x0 x1 (ix3 a b o) = Cert.Spec.dist x0 x1 b a o := by
  rw [val_main_v9_apply, val_main_cst_apply]
  unfold Cert.Spec.dist
  rw [Ideal.ofBits_def, Ideal.ofBits_zero_f32, zero_add]
  refine Finset.sum_congr rfl fun d _ => ?_
  rw [idx9_eq, val_main_v8_apply, val_main_v7_apply, val_main_v5_apply, val_main_v6_apply, val_main_v3_apply,
    val_main_v4_apply, idx5_eq, idx6_eq, v2_at, v2_at]
  rfl

/-- The reference's feature array is the specification's. -/
theorem ref_feat (x0 : (⟨S256x1024, .f32⟩ : BufTy).Contents (Elt Ideal)) (x1 : (⟨S1024x128x16, .f32⟩ : BufTy).Contents (Elt Ideal)) :
    val_main_v14 (F := Ideal) x0 x1 = Cert.Spec.feat x0 x1 := by
  funext n
  obtain ⟨b, o, rfl⟩ : ∃ (b : Fin 256) (o : Fin 128), n = ix2 b o := ⟨n 0, n 1, eq_ix2 n⟩
  rw [Cert.Spec.feat_ix2, val_main_v14_apply, val_main_v12_apply, val_main_v13_apply, val_main_cst_0_apply,
    val_main_cst_1_apply, Ideal.ofBits_def, Ideal.ofBits_def, Ideal.ofBits_zero_f32, zero_add, Ideal.subf_def]
  refine congrArg (· - Cert.Spec.one) (Finset.sum_congr rfl fun a _ => ?_)
  rw [idx12_eq, val_main_v11_apply, val_main_v10_apply, v9_at]
  rfl

/-- The reference's run, with its result stated through the specification: every weakly fair execution terminates with
    the result array the batch joined, along the second axis, with the feature array of the launch contents of the two
    arguments, and the arguments unchanged. -/
theorem ref_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = concatenate S256x1152 1 [⟨S256x1024, (m ((c.tc : Thread nD τ).loc main_arg0))⟩, ⟨S256x128, Cert.Spec.feat (m ((c.tc : Thread nD τ).loc main_arg0)) (m ((c.tc : Thread nD τ).loc main_arg1))⟩] concatenates_S256x1024_S256x128_S256x1152_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v15_eq (F := Ideal) _ _).trans (by unfold val_main_v15; rw [ref_feat])), (h c).2⟩)
    (Cert.ReferenceIdeal.Value.run (F := Ideal) m ρ)

end Cert.RefFeat

end
-- ==== Proof.lean ====
import proofs.«175280_j70806830842566_2_alg».proof.Defs
import proofs.«175280_j70806830842566_2_alg».proof.Proof.Gen.Kernel
import proofs.«175280_j70806830842566_2_alg».proof.Proof.Gen.KernelIdeal
import proofs.«175280_j70806830842566_2_alg».proof.Proof.Gen.ReferenceIdeal
import proofs.«175280_j70806830842566_2_alg».proof.Proof.Gen.Pre_finite_inputs
import proofs.«175280_j70806830842566_2_alg».proof.Proof.KAsm
import proofs.«175280_j70806830842566_2_alg».proof.Proof.Final
import proofs.«175280_j70806830842566_2_alg».proof.Proof.RefFeat
import Idealize.ShloMosaic.Adequacy
import Idealize.ShloMosaic.Init

/-! # Minibatch discrimination: the kernel program against its reference

The kernel program projects the batch (region 0: `x · T` with the tensor recast as a matrix), recasts and transposes
the projection, and computes for every row the sum over all rows of `exp (− L1 distance)` minus `1.0` (region 1: a
row tile against the eight key tiles in turn, the key tiles' contributions accumulated in the output block); it returns
the batch and these features side by side. The reference computes the same features with the whole
`[256, 256, 128, 16]` difference array. On the extended reals both results are `concatenate (x, feat x T)` for the one
function `feat` (`Cert.Spec`): the two differ only in the order and grouping of finite sums, and a change of float
format is the identity there. The frames (each program runs, faults nowhere, leaves its arguments unchanged) come from
the runs themselves; the ideal pass rewrote nothing, so there is nothing to preserve. -/

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Asm.frame m ρ
theorem frame_ki : Cert.frame_KernelIdeal (hKernelIdeal := Cert.KernelIdeal.Gen.facts) (hPre_finite_inputs := Cert.Pre_finite_inputs.Gen.facts) :=
  fun m ρ _ => Cert.KernelIdeal.Asm.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with `concatenate (x, feat x T)` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Final.kernel_result m ρ, ?_⟩
  refine (θ_run Cert.ReferenceIdeal.defs _ _).mono (fun _ h c => ⟨(h c).1.trans ?_, (h c).2⟩) (Cert.RefFeat.ref_result m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
